-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x128 : Shape := ⟨3, ![4, 8192, 128]⟩
abbrev S128x128 : Shape := ⟨2, ![128, 128]⟩
abbrev S128 : Shape := ⟨1, ![128]⟩
abbrev S_ : Shape := ⟨0, ![]⟩

class Facts : Prop where
  bcast_S_S4x8192x128 : S_.BroadcastsInDim S4x8192x128 (![] : Fin 0 → Fin S4x8192x128.rank)
  reducesTo_S4x8192x128_S_d0_1_2 : S4x8192x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S4x8192x128 .f32) (main_arg1 : FVec F S128x128 .f32) (main_arg2 : FVec F S128 .f32) : IVec S_ 1 :=
  let main_v0 : FVec F S4x8192x128 .f32 := Host.absf main_arg0
  let main_cst : FVec F S_ .f32 := constant S_ .f32 0x7F800000#32
  let main_v1 : FVec F S4x8192x128 .f32 := broadcastInDim S4x8192x128 ![] bcast_S_S4x8192x128 main_cst
  let main_v2 : IVec S4x8192x128 1 := cmpf .olt main_v0 main_v1
  let main_c : IVec S_ 1 := constantI S_ 1 1#1
  let main_v3 : IVec S_ 1 := (fun x v => Host.reduce IntOp.andi x v reducesTo_S4x8192x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S4x8192x128 : Shape := ⟨3, ![4, 8192, 128]⟩
abbrev S128x128 : Shape := ⟨2, ![128, 128]⟩
abbrev S128 : Shape := ⟨1, ![128]⟩
abbrev S1x2048x128 : Shape := ⟨3, ![1, 2048, 128]⟩
abbrev S2048x128 : Shape := ⟨2, ![2048, 128]⟩
abbrev S1x128 : Shape := ⟨2, ![1, 128]⟩
abbrev S2048 : Shape := ⟨1, ![2048]⟩
abbrev S2048x1 : Shape := ⟨2, ![2048, 1]⟩
abbrev S1x1024x128 : Shape := ⟨3, ![1, 1024, 128]⟩
abbrev S1x8192x128 : Shape := ⟨3, ![1, 8192, 128]⟩
abbrev S1024x128 : Shape := ⟨2, ![1024, 128]⟩
abbrev S1024x1 : Shape := ⟨2, ![1024, 1]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 5
  | .vmem => 14
  | .smem => 0
  | _ => 0

abbrev bufTy : (tb : Table) → Fin (tcTables nBuf tb) → BufTy
  | .hbm, ⟨0, _⟩ => ⟨S4x8192x128, .f32⟩
  | .hbm, ⟨1, _⟩ => ⟨S128x128, .f32⟩
  | .hbm, ⟨2, _⟩ => ⟨S128, .f32⟩
  | .hbm, ⟨3, _⟩ => ⟨S4x8192x128, .bf16⟩
  | .hbm, ⟨4, _⟩ => ⟨S4x8192x128, .f32⟩
  | .local _ .vmem, ⟨0, _⟩ => ⟨S1x2048x128, .f32⟩
  | .local _ .vmem, ⟨1, _⟩ => ⟨S1x2048x128, .f32⟩
  | .local _ .vmem, ⟨2, _⟩ => ⟨S128x128, .f32⟩
  | .local _ .vmem, ⟨3, _⟩ => ⟨S128, .f32⟩
  | .local _ .vmem, ⟨4, _⟩ => ⟨S1x2048x128, .bf16⟩
  | .local _ .vmem, ⟨5, _⟩ => ⟨S1x2048x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x8192x128, .bf16⟩
  | .local _ .vmem, ⟨9, _⟩ => ⟨S1x8192x128, .bf16⟩
  | .local _ .vmem, ⟨10, _⟩ => ⟨S1x8192x128, .f32⟩
  | .local _ .vmem, ⟨11, _⟩ => ⟨S1x8192x128, .f32⟩
  | .local _ .vmem, ⟨12, _⟩ => ⟨S1x1024x128, .f32⟩
  | .local _ .vmem, ⟨13, _⟩ => ⟨S1x1024x128, .f32⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

@[reducible] def k1_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k1_mult1 (k1_t1 : Fin k1_t1_loop.trips) : BitVec 32 :=
  let c0_i32 : BitVec 32 := 0#32
  let c1_i32 : BitVec 32 := 1#32
  let arg6 : BitVec 32 := Scf.iv c0_i32 c1_i32 k1_t1
  let c1024_i32 : BitVec 32 := 1024#32
  let v13 : BitVec 32 := Scalar.muli arg6 c1024_i32
  v13
def k1_off1 (k1_t1 : Fin k1_t1_loop.trips) : Fin 3 → Nat :=
  let c0_8 : Index := 0#32
  let c0_i32 : BitVec 32 := 0#32
  let c1_i32 : BitVec 32 := 1#32
  let arg6 : BitVec 32 := Scf.iv c0_i32 c1_i32 k1_t1
  let c1024_i32 : BitVec 32 := 1024#32
  let v13 : BitVec 32 := Scalar.muli arg6 c1024_i32
  let v14 : BitVec 32 := v13
  let v15 : Index := Scalar.indexCast v14
  let c0_9 : Index := 0#32
  ![0, v15.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  bitsLt_bf16_f32 : FTy.bits .bf16 < FTy.bits .f32
  transposes_S128x128_p1_0_S128x128 : S128x128.Transposes [1, 0] S128x128
  shapeCasts_S128_S1x128 : S128.ShapeCasts S1x128
  broadcasts_S1x128_S2048x128 : S1x128.Broadcasts S2048x128
  reduces_S2048x128_S2048 : S2048x128.Reduces [1] S2048
  shapeCasts_S2048_S2048x1 : S2048.ShapeCasts S2048x1
  broadcasts_S2048x1_S2048x128 : S2048x1.Broadcasts S2048x128
  shapeCasts_S2048x128_S1x2048x128 : S2048x128.ShapeCasts S1x2048x128
  packedbf16_S1x2048x128_S1x2048x128_0_0_0 : (Rect.unit (s := S1x2048x128) ![0, 0, 0] S1x2048x128.size inb_S1x2048x128_S1x2048x128_0_0_0).PackedRows (EltTy.packing .bf16)
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  transposes_S1024x128_p1_0_S128x1024 : S1024x128.Transposes [1, 0] S128x1024
  natLt_1_32 : 1 < 32
  reduces_S1024x1024_S1024 : S1024x1024.Reduces [1] S1024
  shapeCasts_S1024_S1024x1 : S1024.ShapeCasts S1024x1
  broadcasts_S1024x1_S1024x128 : S1024x1.Broadcasts S1024x128
  shapeCasts_S1024x128_S1x1024x128 : S1024x128.ShapeCasts S1x1024x128
  dot_S2048x128_S128x128_S2048x128_1_0_0_1_n_n_wf : DotDims.WF S2048x128 S128x128 S2048x128 [1] [0] [0] [1] [] []
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S4x8192x128.size a
  hwx0_0 : ∀ i : grid0.Coords, EltTy.bits .f32 = 32 ∨ (Rect.block (s := S4x8192x128) S1x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S4x8192x128.size a
  hwx0_3 : ∀ i : grid0.Coords, EltTy.bits .bf16 = 32 ∨ (Rect.block (s := S4x8192x128) S1x2048x128.size (cc0_transform_3 i) (hinb0_3 i)).WholeWords (EltTy.packing .bf16)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1x1024x128.size a ≤ S1x8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S4x8192x128.size a
  hwx1_0 : ∀ i : grid1.Coords, EltTy.bits .bf16 = 32 ∨ (Rect.block (s := S4x8192x128) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8192x128.size a ≤ S4x8192x128.size a
  hwx1_1 : ∀ i : grid1.Coords, EltTy.bits .bf16 = 32 ∨ (Rect.block (s := S4x8192x128) S1x8192x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8192x128.size a ≤ S4x8192x128.size a
  hwx1_2 : ∀ i : grid1.Coords, EltTy.bits .f32 = 32 ∨ (Rect.block (s := S4x8192x128) S1x8192x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S4x8192x128.size a
  hwx1_3 : ∀ i : grid1.Coords, EltTy.bits .f32 = 32 ∨ (Rect.block (s := S4x8192x128) S1x1024x128.size (cc1_transform_3 i) (hinb1_3 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1x8192x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x8192x128 : Shape := ⟨3, ![4, 8192, 128]⟩
abbrev S128x128 : Shape := ⟨2, ![128, 128]⟩
abbrev S128 : Shape := ⟨1, ![128]⟩
abbrev S1x1x128 : Shape := ⟨3, ![1, 1, 128]⟩
abbrev S_ : Shape := ⟨0, ![]⟩
abbrev S4x8192 : Shape := ⟨2, ![4, 8192]⟩
abbrev S4x8192x1 : Shape := ⟨3, ![4, 8192, 1]⟩
abbrev S4x8192x8192 : Shape := ⟨3, ![4, 8192, 8192]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S128x128, .f32⟩
  | .hbm, ⟨2, _⟩ => ⟨S128, .f32⟩
  | .hbm, ⟨3, _⟩ => ⟨S4x8192x128, .f32⟩
  | .hbm, ⟨4, _⟩ => ⟨S1x1x128, .f32⟩
  | .hbm, ⟨5, _⟩ => ⟨S4x8192x128, .f32⟩
  | .hbm, ⟨6, _⟩ => ⟨S4x8192x128, .f32⟩
  | .hbm, ⟨7, _⟩ => ⟨S4x8192x128, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x128, .f32⟩
  | .hbm, ⟨17, _⟩ => ⟨S4x8192x128, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S4x8192x8192, .i1⟩
  | .hbm, ⟨22, _⟩ => ⟨S4x8192x8192, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S_, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S4x8192x8192, .f32⟩
  | .hbm, ⟨31, _⟩ => ⟨S4x8192x8192, .f32⟩
  | .hbm, ⟨32, _⟩ => ⟨S4x8192x128, .f32⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v4 : Ref sig .tc := ⟨.hbm, 11, rfl⟩
abbrev main_cst : Ref sig .tc := ⟨.hbm, 12, rfl⟩
abbrev main_call1_v0 : Ref sig .tc := ⟨.hbm, 13, rfl⟩
abbrev main_call1_v1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call2_v0 : Ref sig .tc := ⟨.hbm, 27, rfl⟩
abbrev main_call2_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x8192x128_0_1_2 : S1x1x128.BroadcastsInDim S4x8192x128 (![0, 1, 2] : Fin 3 → Fin S4x8192x128.rank)
  reducesTo_S4x8192x128_S4x8192_d2 : S4x8192x128.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x128_0_1_2 : S4x8192x1.BroadcastsInDim S4x8192x128 (![0, 1, 2] : Fin 3 → Fin S4x8192x128.rank)
  bcast_S_S4x8192x8192 : S_.BroadcastsInDim S4x8192x8192 (![] : Fin 0 → Fin S4x8192x8192.rank)
  reducesTo_S4x8192x8192_S4x8192_d2 : S4x8192x8192.ReducesTo [2] S4x8192
  bcast_S4x8192x1_S4x8192x8192_0_1_2 : S4x8192x1.BroadcastsInDim S4x8192x8192 (![0, 1, 2] : Fin 3 → Fin S4x8192x8192.rank)
  dot_S4x8192x128_S128x128_S4x8192x128_2_1_01_0_n_n_wf : DotDims.WF S4x8192x128 S128x128 S4x8192x128 [2] [1] [0, 1] [0] [] []
  dot_S4x8192x128_S4x8192x128_S4x8192x8192_2_2_1_1_0_0_wf : DotDims.WF S4x8192x128 S4x8192x128 S4x8192x8192 [2] [2] [1] [1] [0] [0]
  dot_S4x8192x8192_S4x8192x128_S4x8192x128_2_1_1_2_0_0_wf : DotDims.WF S4x8192x8192 S4x8192x128 S4x8192x128 [2] [1] [1] [2] [0] [0]

variable [Facts₀]

def dot_S4x8192x128_S128x128_S4x8192x128_2_1_01_0_n_n : DotDims S4x8192x128 S128x128 S4x8192x128 where
  lhsContracting := [2]
  rhsContracting := [1]
  lhsNonContracting := [0, 1]
  rhsNonContracting := [0]
  lhsBatch := []
  rhsBatch := []
  wf := dot_S4x8192x128_S128x128_S4x8192x128_2_1_01_0_n_n_wf
def dot_S4x8192x128_S4x8192x128_S4x8192x8192_2_2_1_1_0_0 : DotDims S4x8192x128 S4x8192x128 S4x8192x8192 where
  lhsContracting := [2]
  rhsContracting := [2]
  lhsNonContracting := [1]
  rhsNonContracting := [1]
  lhsBatch := [0]
  rhsBatch := [0]
  wf := dot_S4x8192x128_S4x8192x128_S4x8192x8192_2_2_1_1_0_0_wf
def dot_S4x8192x8192_S4x8192x128_S4x8192x128_2_1_1_2_0_0 : DotDims S4x8192x8192 S4x8192x128 S4x8192x128 where
  lhsContracting := [2]
  rhsContracting := [1]
  lhsNonContracting := [1]
  rhsNonContracting := [2]
  lhsBatch := [0]
  rhsBatch := [0]
  wf := dot_S4x8192x8192_S4x8192x128_S4x8192x128_2_1_1_2_0_0_wf

class Facts : Prop extends Facts₀ where

variable [Facts]
-- ==== Proof.KernelFrame.Region0.lean ====
/-
  The first kernel region, at any float instance: a row block of the projection.

  Grid point (bi, ni) of the 4 x 4 grid stages rows [2048 ni, 2048 ni + 2048) of batch bi of the input
  array, the whole weight matrix and the whole bias, and writes back one block of the same rows of the
  projected array. The body loads the three input blocks whole, computes ONE value from them — the
  product of the row block with the transposed weights plus the bias, each row divided by the larger
  of its Euclidean norm and the small floor — and stores it over the whole output block. So what the
  body leaves in the output's staging buffer is that value of the three input blocks, and what it
  leaves in each input's staging buffer is the block it found there.
-/
import proofs.«161358_j34677565948786_2_alg».proof.Proof.Gen.Kernel.Launch
import proofs.«161358_j34677565948786_2_alg».proof.Proof.Gen.Kernel.Skeleton
import proofs.«161358_j34677565948786_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input rows' staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole matrix at every point, though it is fetched only at the first. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias' staging buffer holds the whole vector at every point, though it is fetched only at the first. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole staging buffer -/

abbrev rx0 : Rect S1x2048x128 := Rect.unit (s := S1x2048x128) ![0, 0, 0] S1x2048x128.size inb_S1x2048x128_S1x2048x128_0_0_0
abbrev rw0 : Rect S128x128 := Rect.unit (s := S128x128) ![0, 0] S128x128.size inb_S128x128_S128x128_0_0
abbrev rb0 : Rect S128 := Rect.unit (s := S128) ![0] S128.size inb_S128_S128_0

/-! ## What the body leaves in the output's staging buffer -/

/-- The output block after the body, from the three input blocks: its one store, over the whole block. -/
def out0_3 (x0 : Vec F S1x2048x128 .f32) (x1 : Vec F S128x128 .f32) (x2 : Vec F S128 .f32) : Vec F S1x2048x128 .bf16 :=
  View.canon [⟨rx0, k0_pay1 (View.ld x0 rx0) (View.ld x1 rw0) (View.ld x2 rb0)⟩]

/-- The one store covers the block. -/
theorem cover0_3 (p0 : Vec F S1x2048x128 .bf16) (y : S1x2048x128.Idx) :
    ∃ pc ∈ ([⟨rx0, p0⟩] : List (View.Piece (Elt F) S1x2048x128 .bf16)), y ∈ pc.1.set :=
  View.cover_of_tiled [⟨rx0, p0⟩] S1x2048x128.size (by rfl) y

/-! ## The body's triple -/

set_option maxHeartbeats 1000000 in
/-- The body on whole staging memrefs, the inputs' at read contents `x0 x1 x2` and the output's at anything,
    runs to the continuation holding the inputs' as they were and the output's at `out0_3` of them. -/
theorem sound_kernel0 (c : Dev nD) (E : Set ℕ) (i : grid0.Coords) (arg2 : Memref sig .tc .vmem S1x2048x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S1x2048x128 .bf16) (harg5 : arg5.IsWhole)
    (x0 : Vec F S1x2048x128 .f32) (x1 : Vec F S128x128 .f32) (x2 : Vec F S128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__proj_kernel i arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the first pipeline on core `c`: the arrays as the region finds them; after the body at point
    `t` each input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelFrame.Region1.lean ====
/-
  The second kernel region, at any float instance: a block of query rows against all keys of its batch.

  Grid point (bi, qi) of the 4 x 8 grid stages 1024 query rows of batch bi of the normalised projection,
  ALL 8192 rows of that batch of the same array as keys, all 8192 rows of that batch of the input array
  as values, and writes back one block of 1024 output rows. The body loads the query block, then runs
  eight trips over key tiles of 1024 rows carrying a pair (neighbour count per query row, weighted sum
  of value rows per query row): each trip loads one key tile and one value tile and adds that tile's
  contribution to both. After the last trip the sum is divided by the larger of the count and one and
  stored over the whole output block. The carried pair after the trips is a function of the three input
  blocks (the trips only read), so what the body leaves in the output's staging buffer is one value of
  the three input blocks, and each input's staging buffer keeps the block it held.
-/
import proofs.«161358_j34677565948786_2_alg».proof.Proof.Gen.Kernel.Launch
import proofs.«161358_j34677565948786_2_alg».proof.Proof.Gen.Kernel.Skeleton
import proofs.«161358_j34677565948786_2_alg».proof.Proof.Gen.Kernel.Points
import proofs.«161358_j34677565948786_2_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses and what it leaves in the output's staging buffer -/

abbrev rq1 : Rect S1x1024x128 := Rect.unit (s := S1x1024x128) ![0, 0, 0] S1x1024x128.size inb_S1x1024x128_S1x1024x128_0_0_0

/-- The carried pair (count, weighted sum) after the eight key tiles, from the three input blocks: the trips' recursion
    started from the zero pair, the staging memrefs held at the contents that read the blocks. -/
def carried1 (c : Dev nD) (i : grid1.Coords) (arg2 : Memref sig .tc .vmem S1x1024x128 .bf16) (harg2 : arg2.IsWhole) (arg3 : Memref sig .tc .vmem S1x8192x128 .bf16) (harg3 : arg3.IsWhole) (arg4 : Memref sig .tc .vmem S1x8192x128 .f32) (harg4 : arg4.IsWhole) (arg5 : Memref sig .tc .vmem S1x1024x128 .f32) (harg5 : arg5.IsWhole)
    (x0 : Vec F S1x1024x128 .bf16) (x1 : Vec F S1x8192x128 .bf16) (x2 : Vec F S1x8192x128 .f32) : FVec F S1024x1 .f32 × FVec F S1024x128 .f32 :=
  st_k1_t1 (F := F) Variants.none c none i arg2 harg2 arg3 harg3 arg4 harg4 arg5 harg5
    (View.readAt (Elt F) arg2.view rq1.toLoadRect (harg2.unread x0)) (harg3.unread x1) (harg4.unread x2)
    (k1_pay1, k1_pay2) (Scf.trips k1_t1_loop.lb k1_t1_loop.ub k1_t1_loop.st)

/-- The output block after the body, from the three input blocks: its one store, over the whole block. -/
def out1_3 (c : Dev nD) (i : grid1.Coords) (arg2 : Memref sig .tc .vmem S1x1024x128 .bf16) (harg2 : arg2.IsWhole) (arg3 : Memref sig .tc .vmem S1x8192x128 .bf16) (harg3 : arg3.IsWhole) (arg4 : Memref sig .tc .vmem S1x8192x128 .f32) (harg4 : arg4.IsWhole) (arg5 : Memref sig .tc .vmem S1x1024x128 .f32) (harg5 : arg5.IsWhole)
    (x0 : Vec F S1x1024x128 .bf16) (x1 : Vec F S1x8192x128 .bf16) (x2 : Vec F S1x8192x128 .f32) : Vec F S1x1024x128 .f32 :=
  View.canon [⟨rq1, k1_pay6 (carried1 c i arg2 harg2 arg3 harg3 arg4 harg4 arg5 harg5 x0 x1 x2).1 (carried1 c i arg2 harg2 arg3 harg3 arg4 harg4 arg5 harg5 x0 x1 x2).2⟩]

/-- The one store covers the block. -/
theorem cover1_3 (p0 : Vec F S1x1024x128 .f32) (y : S1x1024x128.Idx) :
    ∃ pc ∈ ([⟨rq1, p0⟩] : List (View.Piece (Elt F) S1x1024x128 .f32)), y ∈ pc.1.set :=
  View.cover_of_tiled [⟨rq1, p0⟩] S1x1024x128.size (by rfl) y

/-! ## The body's triple -/

set_option maxHeartbeats 1000000 in
/-- The body on whole staging memrefs, the inputs' at read contents `x0 x1 x2` and the output's at anything, runs
    to the continuation holding the inputs' as they were and the output's at `out1_3` of them. The trips go by
    their invariant: both tiles' buffers held, the carried pair the recursion's value. -/
theorem sound_kernel1 (c : Dev nD) (E : Set ℕ) (i : grid1.Coords) (arg2 : Memref sig .tc .vmem S1x1024x128 .bf16) (harg2 : arg2.IsWhole) (arg3 : Memref sig .tc .vmem S1x8192x128 .bf16) (harg3 : arg3.IsWhole) (arg4 : Memref sig .tc .vmem S1x8192x128 .f32) (harg4 : arg4.IsWhole) (arg5 : Memref sig .tc .vmem S1x1024x128 .f32) (harg5 : arg5.IsWhole)
    (x0 : Vec F S1x1024x128 .bf16) (x1 : Vec F S1x8192x128 .bf16) (x2 : Vec F S1x8192x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 c i arg2 harg2 arg3 harg3 arg4 harg4 arg5 harg5 x0 x1 x2)) -∗ K ⟨⟩))
      ⊢ wp frame (wpE (defs₀ (F := F)) Variants.none c none) E (cc1__agg_kernel i arg2 harg2 arg3 harg3 arg4 harg4 arg5 harg5) K := by
  simp only [cc1__agg_kernel_eq_skeleton]; unfold cc1__agg_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0
  obtain rfl := harg3.eq_unread hf1
  obtain rfl := harg4.eq_unread hf2
  sl_exec
  sl_step
  iapply Hk
  isplitl [H0]
  · iexists _; isplitr; · ipureintro; exact harg2.read_unread x0
    iexact H0
  isplitl [H1]
  · iexists _; isplitr; · ipureintro; exact harg3.read_unread x1
    iexact H1
  isplitl [H2]
  · iexists _; isplitr; · ipureintro; exact harg4.read_unread x2
    iexact H2
  iexists _; isplitr
  swap; · iexact H3
  ipureintro
  exact View.read_writes_eq_canon _ _ _ (cover1_3 _)

/-! ## The windows' blocks and the pipeline's proof data -/

-- the core's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query rows' staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The keys' staging buffer holds the batch's rows at every point, fetched there or kept from the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The values' staging buffer holds the batch's rows at every point, fetched there or kept from the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output block point `t` leaves: `out1_3` at the point's staging memrefs and input blocks. -/
def outAt1 (c : Dev nD) (t : Fin cfg1.N) : Vec F S1x1024x128 .f32 :=
  out1_3 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3))
    (iblk1 V c 0 t) (iblk1 V c 1 t) (iblk1 V c 2 t)

/-- The two windows on the projected array each hold half of it: the query window the left half of the full share,
    the key window the right half. -/
def q1 : Fin cfg1.W → PosShare TreeShare
  | ⟨0, _⟩ => fullShare.left
  | ⟨1, _⟩ => fullShare.right
  | _ => fullShare

/-- The proof data of the second pipeline on core `c`: the arrays as the region finds them; after the body at point
    `t` each input's buffer at its block and the output's at `outAt1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outAt1
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelFrame.Run.lean ====
/-
  The whole run of the program, at any float instance: its two kernel regions one after the other.

  The core's unscoped buffers are the three argument arrays, the projected array (written by the first
  region, read by the second) and the result array (written by the second). Between the regions the
  buffers hold: at launch the memory the program is started on; after the first region the same with the
  projected array at what the first pipeline's write-backs leave; after the second region the same with
  the result array at what the second pipeline's write-backs leave. No region writes an argument array.

  In the second region two input windows (the query rows and the key rows) read ONE array, the projected
  one; the array's ownership is split in two halves between them on entry and joined again on exit.

  Every weakly fair execution therefore terminates without a fault, with the argument arrays as launched
  and the result array at the second pipeline's final contents.
-/
import proofs.«161358_j34677565948786_2_alg».proof.Proof.KernelFrame.Region0
import proofs.«161358_j34677565948786_2_alg».proof.Proof.KernelFrame.Region1
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the TensorCore's references: what the first region is entered from. -/
abbrev V0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: what the second region is entered from. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- What the second pipeline's write-backs leave in the result array. -/
def result (c : Dev nD) : Buf (Elt F) ((c : Thread nD τ).loc main_v1) := (dat1 (V1 m ρ) c).arrAt 3 cfg1.N

/-- After the second region: the result array at what the pipeline leaves, every other buffer as entered. -/
def W2 (c : Dev nD) : Valuation τ sig (Elt F) :=
  Function.update (W1 m ρ c) (Proc.devRef .tc main_v1) (result m ρ c)
abbrev V2 : (c : Dev nD) → (b : Ref sig .tc) → Buf (Elt F) ((c : Thread nD τ).loc b) := fun c b => W2 m ρ c b
theorem V2_result (c : Dev nD) : V2 m ρ c main_v1 = result m ρ c := by
  unfold V2 W2; exact Function.update_self _ _ _
theorem V2_of_ne (c : Dev nD) (b : Ref sig .tc) (hb : b ≠ main_v1) : V2 m ρ c b = V1 m ρ c b := by
  unfold V2 W2
  exact Function.update_of_ne (StableHlo.devRef_ne_of_ne hb : (Proc.devRef .tc b : DevRef τ sig) ≠ Proc.devRef .tc main_v1) _ _

/-! ### The arguments end as launched -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := V2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := V2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := V2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The unscoped buffers and the second pipeline's arrays, one by one -/

/-- The core's five unscoped buffers, each whole at contents `V`. -/
theorem unscopedBufs_list (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1)
          ∗ (((c : Thread nD τ).loc main_arg2) ↦{fullShare} V main_arg2) ∗ (((c : Thread nD τ).loc main_v0) ↦{fullShare} V main_v0)
          ∗ (((c : Thread nD τ).loc main_v1) ↦{fullShare} V main_v1)) := by
  unfold unscopedBufs
  exact bigSep_eq_bigSepL_of_eq [main_arg0, main_arg1, main_arg2, main_v0, main_v1] (by decide) (by decide) _

/-- The second pipeline's arrays at contents `A`: the projected array twice, at the left half for the query window
    and at the right half for the key window; the input array and the result array whole. -/
theorem arrays1_list (c : Dev nD) (Vx : (c : Dev nD) → (b : Ref sig .tc) → Buf (Elt F) ((c : Thread nD τ).loc b))
    (A : (w : Fin cfg1.W) → Buf (Elt F) ((cfg1.win w).arr.view.loc (c.tc : Thread nD τ))) :
    ((dat1 Vx c).arrays A : sProp 𝕄)
      = iprop((((c : Thread nD τ).loc main_v0) ↦{fullShare.left} A 0) ∗ (((c : Thread nD τ).loc main_v0) ↦{fullShare.right} A 1)
          ∗ (((c : Thread nD τ).loc main_arg0) ↦{fullShare} A 2) ∗ (((c : Thread nD τ).loc main_v1) ↦{fullShare} A 3)) := by
  unfold Dat.arrays
  refine (bigSep_congr (Ψ := fun w : Fin cfg1.W => (((c.tc : Thread nD τ).loc (Pipeline.arrRef spec1 w)) ↦{(dat1 Vx c).share w} A w : sProp 𝕄))
    fun w _ => by rw [(arr_whole1 w).set_eq_univ]).trans ?_
  rw [bigSep_W1]
  rfl

/-! ## The regions as segments -/

set_option backward.isDefEq.respectTransparency.types false in
/-- THE FIRST REGION over the thread state: entered from every unscoped buffer at the launch contents, left with the
    projected array at what the pipeline leaves. Its arrays are split out of the unscoped buffers and put back at the
    exit contents; the generator register goes into the invariant and comes out; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from the buffers as the first region left them, left with the
    result array at what the pipeline leaves. The projected array's ownership is halved between the query window and
    the key window on entry, and the halves are joined on exit (both windows only read it). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    rw [← Pipeline.unscopedBufs_held (Ix := Unit) (Name := ℕ) (U := UR sig nD τ) (Lvl := ℕ) c (W1 m ρ c), unscopedBufs_list,
      show (pdats m ρ 1 c) = dat1 (V1 m ρ) c from rfl, arrays1_list, unscopedRest1_eq]
    iintro ⟨⟨⟨Ha0, Ha1, Ha2, Hv0, Hv1⟩, Hp, HO⟩, -, -⟩
    ihave Hs := (pointsTo_share (PosShare.mem_left_op_right fullShare)).1 $$ Hv0
    icases Hs with ⟨Hl, Hr⟩
    imodintro
    isplitl [Hl Hr Ha0 Hv1]
    · isplitl [Hl]; · iexact Hl
      isplitl [Hr]; · iexact Hr
      isplitl [Ha0]; · iexact Ha0
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha1]; · iexact Ha1
    iexact Ha2
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have e0 : ∀ n, (dat1 (V1 m ρ) c).arrAt 0 n = V1 m ρ c main_v0 := fun n => ((dat1 (V1 m ρ) c).arrAt_in 0 rfl n).trans (A_eq1 (V1 m ρ) c 0)
    have e1 : ∀ n, (dat1 (V1 m ρ) c).arrAt 1 n = V1 m ρ c main_v0 := fun n => ((dat1 (V1 m ρ) c).arrAt_in 1 rfl n).trans (A_eq1 (V1 m ρ) c 1)
    have e2 : ∀ n, (dat1 (V1 m ρ) c).arrAt 2 n = V1 m ρ c main_arg0 := fun n => ((dat1 (V1 m ρ) c).arrAt_in 2 rfl n).trans (A_eq1 (V1 m ρ) c 2)
    unfold Tₙ
    rw [← Pipeline.unscopedBufs_held (Ix := Unit) (Name := ℕ) (U := UR sig nD τ) (Lvl := ℕ) c (W2 m ρ c), unscopedBufs_list,
      show (pdats m ρ 1 c) = dat1 (V1 m ρ) c from rfl, arrays1_list, unscopedRest1_eq]
    rw [show W2 m ρ c (Proc.devRef .tc main_arg0) = V1 m ρ c main_arg0 from V2_of_ne m ρ c main_arg0 (by decide),
      show W2 m ρ c (Proc.devRef .tc main_arg1) = V1 m ρ c main_arg1 from V2_of_ne m ρ c main_arg1 (by decide),
      show W2 m ρ c (Proc.devRef .tc main_arg2) = V1 m ρ c main_arg2 from V2_of_ne m ρ c main_arg2 (by decide),
      show W2 m ρ c (Proc.devRef .tc main_v0) = V1 m ρ c main_v0 from V2_of_ne m ρ c main_v0 (by decide),
      show W2 m ρ c (Proc.devRef .tc main_v1) = (dat1 (V1 m ρ) c).arrAt 3 cfg1.N from V2_result m ρ c]
    rw [e0, e1, e2]
    iintro ⟨⟨Hl, Hr, Ha0, Hv1⟩, HO, HY, Ha1, Ha2⟩
    ihave Hv0 := (pointsTo_share (PosShare.mem_left_op_right fullShare)).2 $$ [Hl Hr]
    · isplitl [Hl]; · iexact Hl
      iexact Hr
    imodintro
    isplitr [HO]
    · isplitr [HY]
      · isplitl [Ha0]; · iexact Ha0
        isplitl [Ha1]; · iexact Ha1
        isplitl [Ha2]; · iexact Ha2
        isplitl [Hv0]; · iexact Hv0
        iexact Hv1
      iexact HY
    unfold Pipeline.Dat.owesAt Pipeline.owesWithin
    icases HO with ⟨%W, -, HO⟩; iexists W; iexact HO

/-! ## The program as its two regions, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN, at any float instance: from any memory with zero counters every weakly fair execution terminates, nothing
    faulting, with every unscoped buffer at the last boundary's contents — so the result array holds what the second
    pipeline leaves and each argument array what it was launched with. -/
theorem run : θ_run defs (onTc (τ := τ) (main (F := F))) ⟨m, fun _ => 0, ρ⟩ (fun r => ∀ c : Dev nD,
      r.2.mem ((c.tc : Thread nD τ).loc main_v1) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (V2_result m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.Kernel.Hand

end
-- ==== Proof.KernelIdealFrame.Region0.lean ====
/-
  The first kernel region, at any float instance: a row block of the projection.

  Grid point (bi, ni) of the 4 x 4 grid stages rows [2048 ni, 2048 ni + 2048) of batch bi of the input
  array, the whole weight matrix and the whole bias, and writes back one block of the same rows of the
  projected array. The body loads the three input blocks whole, computes ONE value from them — the
  product of the row block with the transposed weights plus the bias, each row divided by the larger
  of its Euclidean norm and the small floor — and stores it over the whole output block. So what the
  body leaves in the output's staging buffer is that value of the three input blocks, and what it
  leaves in each input's staging buffer is the block it found there.
-/
import proofs.«161358_j34677565948786_2_alg».proof.Proof.Gen.KernelIdeal.Launch
import proofs.«161358_j34677565948786_2_alg».proof.Proof.Gen.KernelIdeal.Skeleton
import proofs.«161358_j34677565948786_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input rows' staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole matrix at every point, though it is fetched only at the first. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias' staging buffer holds the whole vector at every point, though it is fetched only at the first. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole staging buffer -/

abbrev rx0 : Rect S1x2048x128 := Rect.unit (s := S1x2048x128) ![0, 0, 0] S1x2048x128.size inb_S1x2048x128_S1x2048x128_0_0_0
abbrev rw0 : Rect S128x128 := Rect.unit (s := S128x128) ![0, 0] S128x128.size inb_S128x128_S128x128_0_0
abbrev rb0 : Rect S128 := Rect.unit (s := S128) ![0] S128.size inb_S128_S128_0

/-! ## What the body leaves in the output's staging buffer -/

/-- The output block after the body, from the three input blocks: its one store, over the whole block. -/
def out0_3 (x0 : Vec F S1x2048x128 .f32) (x1 : Vec F S128x128 .f32) (x2 : Vec F S128 .f32) : Vec F S1x2048x128 .bf16 :=
  View.canon [⟨rx0, k0_pay1 (View.ld x0 rx0) (View.ld x1 rw0) (View.ld x2 rb0)⟩]

/-- The one store covers the block. -/
theorem cover0_3 (p0 : Vec F S1x2048x128 .bf16) (y : S1x2048x128.Idx) :
    ∃ pc ∈ ([⟨rx0, p0⟩] : List (View.Piece (Elt F) S1x2048x128 .bf16)), y ∈ pc.1.set :=
  View.cover_of_tiled [⟨rx0, p0⟩] S1x2048x128.size (by rfl) y

/-! ## The body's triple -/

set_option maxHeartbeats 1000000 in
/-- The body on whole staging memrefs, the inputs' at read contents `x0 x1 x2` and the output's at anything,
    runs to the continuation holding the inputs' as they were and the output's at `out0_3` of them. -/
theorem sound_kernel0 (c : Dev nD) (E : Set ℕ) (i : grid0.Coords) (arg2 : Memref sig .tc .vmem S1x2048x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S1x2048x128 .bf16) (harg5 : arg5.IsWhole)
    (x0 : Vec F S1x2048x128 .f32) (x1 : Vec F S128x128 .f32) (x2 : Vec F S128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__proj_kernel i arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the first pipeline on core `c`: the arrays as the region finds them; after the body at point
    `t` each input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealFrame.Region1.lean ====
/-
  The second kernel region, at any float instance: a block of query rows against all keys of its batch.

  Grid point (bi, qi) of the 4 x 8 grid stages 1024 query rows of batch bi of the normalised projection,
  ALL 8192 rows of that batch of the same array as keys, all 8192 rows of that batch of the input array
  as values, and writes back one block of 1024 output rows. The body loads the query block, then runs
  eight trips over key tiles of 1024 rows carrying a pair (neighbour count per query row, weighted sum
  of value rows per query row): each trip loads one key tile and one value tile and adds that tile's
  contribution to both. After the last trip the sum is divided by the larger of the count and one and
  stored over the whole output block. The carried pair after the trips is a function of the three input
  blocks (the trips only read), so what the body leaves in the output's staging buffer is one value of
  the three input blocks, and each input's staging buffer keeps the block it held.
-/
import proofs.«161358_j34677565948786_2_alg».proof.Proof.Gen.KernelIdeal.Launch
import proofs.«161358_j34677565948786_2_alg».proof.Proof.Gen.KernelIdeal.Skeleton
import proofs.«161358_j34677565948786_2_alg».proof.Proof.Gen.KernelIdeal.Points
import proofs.«161358_j34677565948786_2_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses and what it leaves in the output's staging buffer -/

abbrev rq1 : Rect S1x1024x128 := Rect.unit (s := S1x1024x128) ![0, 0, 0] S1x1024x128.size inb_S1x1024x128_S1x1024x128_0_0_0

/-- The carried pair (count, weighted sum) after the eight key tiles, from the three input blocks: the trips' recursion
    started from the zero pair, the staging memrefs held at the contents that read the blocks. -/
def carried1 (c : Dev nD) (i : grid1.Coords) (arg2 : Memref sig .tc .vmem S1x1024x128 .bf16) (harg2 : arg2.IsWhole) (arg3 : Memref sig .tc .vmem S1x8192x128 .bf16) (harg3 : arg3.IsWhole) (arg4 : Memref sig .tc .vmem S1x8192x128 .f32) (harg4 : arg4.IsWhole) (arg5 : Memref sig .tc .vmem S1x1024x128 .f32) (harg5 : arg5.IsWhole)
    (x0 : Vec F S1x1024x128 .bf16) (x1 : Vec F S1x8192x128 .bf16) (x2 : Vec F S1x8192x128 .f32) : FVec F S1024x1 .f32 × FVec F S1024x128 .f32 :=
  st_k1_t1 (F := F) Variants.none c none i arg2 harg2 arg3 harg3 arg4 harg4 arg5 harg5
    (View.readAt (Elt F) arg2.view rq1.toLoadRect (harg2.unread x0)) (harg3.unread x1) (harg4.unread x2)
    (k1_pay1, k1_pay2) (Scf.trips k1_t1_loop.lb k1_t1_loop.ub k1_t1_loop.st)

/-- The output block after the body, from the three input blocks: its one store, over the whole block. -/
def out1_3 (c : Dev nD) (i : grid1.Coords) (arg2 : Memref sig .tc .vmem S1x1024x128 .bf16) (harg2 : arg2.IsWhole) (arg3 : Memref sig .tc .vmem S1x8192x128 .bf16) (harg3 : arg3.IsWhole) (arg4 : Memref sig .tc .vmem S1x8192x128 .f32) (harg4 : arg4.IsWhole) (arg5 : Memref sig .tc .vmem S1x1024x128 .f32) (harg5 : arg5.IsWhole)
    (x0 : Vec F S1x1024x128 .bf16) (x1 : Vec F S1x8192x128 .bf16) (x2 : Vec F S1x8192x128 .f32) : Vec F S1x1024x128 .f32 :=
  View.canon [⟨rq1, k1_pay6 (carried1 c i arg2 harg2 arg3 harg3 arg4 harg4 arg5 harg5 x0 x1 x2).1 (carried1 c i arg2 harg2 arg3 harg3 arg4 harg4 arg5 harg5 x0 x1 x2).2⟩]

/-- The one store covers the block. -/
theorem cover1_3 (p0 : Vec F S1x1024x128 .f32) (y : S1x1024x128.Idx) :
    ∃ pc ∈ ([⟨rq1, p0⟩] : List (View.Piece (Elt F) S1x1024x128 .f32)), y ∈ pc.1.set :=
  View.cover_of_tiled [⟨rq1, p0⟩] S1x1024x128.size (by rfl) y

/-! ## The body's triple -/

set_option maxHeartbeats 1000000 in
/-- The body on whole staging memrefs, the inputs' at read contents `x0 x1 x2` and the output's at anything, runs
    to the continuation holding the inputs' as they were and the output's at `out1_3` of them. The trips go by
    their invariant: both tiles' buffers held, the carried pair the recursion's value. -/
theorem sound_kernel1 (c : Dev nD) (E : Set ℕ) (i : grid1.Coords) (arg2 : Memref sig .tc .vmem S1x1024x128 .bf16) (harg2 : arg2.IsWhole) (arg3 : Memref sig .tc .vmem S1x8192x128 .bf16) (harg3 : arg3.IsWhole) (arg4 : Memref sig .tc .vmem S1x8192x128 .f32) (harg4 : arg4.IsWhole) (arg5 : Memref sig .tc .vmem S1x1024x128 .f32) (harg5 : arg5.IsWhole)
    (x0 : Vec F S1x1024x128 .bf16) (x1 : Vec F S1x8192x128 .bf16) (x2 : Vec F S1x8192x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 c i arg2 harg2 arg3 harg3 arg4 harg4 arg5 harg5 x0 x1 x2)) -∗ K ⟨⟩))
      ⊢ wp frame (wpE (defs₀ (F := F)) Variants.none c none) E (cc1__agg_kernel i arg2 harg2 arg3 harg3 arg4 harg4 arg5 harg5) K := by
  simp only [cc1__agg_kernel_eq_skeleton]; unfold cc1__agg_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0
  obtain rfl := harg3.eq_unread hf1
  obtain rfl := harg4.eq_unread hf2
  sl_exec
  sl_step
  iapply Hk
  isplitl [H0]
  · iexists _; isplitr; · ipureintro; exact harg2.read_unread x0
    iexact H0
  isplitl [H1]
  · iexists _; isplitr; · ipureintro; exact harg3.read_unread x1
    iexact H1
  isplitl [H2]
  · iexists _; isplitr; · ipureintro; exact harg4.read_unread x2
    iexact H2
  iexists _; isplitr
  swap; · iexact H3
  ipureintro
  exact View.read_writes_eq_canon _ _ _ (cover1_3 _)

/-! ## The windows' blocks and the pipeline's proof data -/

-- the core's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query rows' staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The keys' staging buffer holds the batch's rows at every point, fetched there or kept from the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The values' staging buffer holds the batch's rows at every point, fetched there or kept from the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output block point `t` leaves: `out1_3` at the point's staging memrefs and input blocks. -/
def outAt1 (c : Dev nD) (t : Fin cfg1.N) : Vec F S1x1024x128 .f32 :=
  out1_3 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3))
    (iblk1 V c 0 t) (iblk1 V c 1 t) (iblk1 V c 2 t)

/-- The two windows on the projected array each hold half of it: the query window the left half of the full share,
    the key window the right half. -/
def q1 : Fin cfg1.W → PosShare TreeShare
  | ⟨0, _⟩ => fullShare.left
  | ⟨1, _⟩ => fullShare.right
  | _ => fullShare

/-- The proof data of the second pipeline on core `c`: the arrays as the region finds them; after the body at point
    `t` each input's buffer at its block and the output's at `outAt1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outAt1
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealFrame.Run.lean ====
/-
  The whole run of the program, at any float instance: its two kernel regions one after the other.

  The core's unscoped buffers are the three argument arrays, the projected array (written by the first
  region, read by the second) and the result array (written by the second). Between the regions the
  buffers hold: at launch the memory the program is started on; after the first region the same with the
  projected array at what the first pipeline's write-backs leave; after the second region the same with
  the result array at what the second pipeline's write-backs leave. No region writes an argument array.

  In the second region two input windows (the query rows and the key rows) read ONE array, the projected
  one; the array's ownership is split in two halves between them on entry and joined again on exit.

  Every weakly fair execution therefore terminates without a fault, with the argument arrays as launched
  and the result array at the second pipeline's final contents.
-/
import proofs.«161358_j34677565948786_2_alg».proof.Proof.KernelIdealFrame.Region0
import proofs.«161358_j34677565948786_2_alg».proof.Proof.KernelIdealFrame.Region1
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the TensorCore's references: what the first region is entered from. -/
abbrev V0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: what the second region is entered from. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- What the second pipeline's write-backs leave in the result array. -/
def result (c : Dev nD) : Buf (Elt F) ((c : Thread nD τ).loc main_v1) := (dat1 (V1 m ρ) c).arrAt 3 cfg1.N

/-- After the second region: the result array at what the pipeline leaves, every other buffer as entered. -/
def W2 (c : Dev nD) : Valuation τ sig (Elt F) :=
  Function.update (W1 m ρ c) (Proc.devRef .tc main_v1) (result m ρ c)
abbrev V2 : (c : Dev nD) → (b : Ref sig .tc) → Buf (Elt F) ((c : Thread nD τ).loc b) := fun c b => W2 m ρ c b
theorem V2_result (c : Dev nD) : V2 m ρ c main_v1 = result m ρ c := by
  unfold V2 W2; exact Function.update_self _ _ _
theorem V2_of_ne (c : Dev nD) (b : Ref sig .tc) (hb : b ≠ main_v1) : V2 m ρ c b = V1 m ρ c b := by
  unfold V2 W2
  exact Function.update_of_ne (StableHlo.devRef_ne_of_ne hb : (Proc.devRef .tc b : DevRef τ sig) ≠ Proc.devRef .tc main_v1) _ _

/-! ### The arguments end as launched -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := V2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := V2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := V2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The unscoped buffers and the second pipeline's arrays, one by one -/

/-- The core's five unscoped buffers, each whole at contents `V`. -/
theorem unscopedBufs_list (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1)
          ∗ (((c : Thread nD τ).loc main_arg2) ↦{fullShare} V main_arg2) ∗ (((c : Thread nD τ).loc main_v0) ↦{fullShare} V main_v0)
          ∗ (((c : Thread nD τ).loc main_v1) ↦{fullShare} V main_v1)) := by
  unfold unscopedBufs
  exact bigSep_eq_bigSepL_of_eq [main_arg0, main_arg1, main_arg2, main_v0, main_v1] (by decide) (by decide) _

/-- The second pipeline's arrays at contents `A`: the projected array twice, at the left half for the query window
    and at the right half for the key window; the input array and the result array whole. -/
theorem arrays1_list (c : Dev nD) (Vx : (c : Dev nD) → (b : Ref sig .tc) → Buf (Elt F) ((c : Thread nD τ).loc b))
    (A : (w : Fin cfg1.W) → Buf (Elt F) ((cfg1.win w).arr.view.loc (c.tc : Thread nD τ))) :
    ((dat1 Vx c).arrays A : sProp 𝕄)
      = iprop((((c : Thread nD τ).loc main_v0) ↦{fullShare.left} A 0) ∗ (((c : Thread nD τ).loc main_v0) ↦{fullShare.right} A 1)
          ∗ (((c : Thread nD τ).loc main_arg0) ↦{fullShare} A 2) ∗ (((c : Thread nD τ).loc main_v1) ↦{fullShare} A 3)) := by
  unfold Dat.arrays
  refine (bigSep_congr (Ψ := fun w : Fin cfg1.W => (((c.tc : Thread nD τ).loc (Pipeline.arrRef spec1 w)) ↦{(dat1 Vx c).share w} A w : sProp 𝕄))
    fun w _ => by rw [(arr_whole1 w).set_eq_univ]).trans ?_
  rw [bigSep_W1]
  rfl

/-! ## The regions as segments -/

set_option backward.isDefEq.respectTransparency.types false in
/-- THE FIRST REGION over the thread state: entered from every unscoped buffer at the launch contents, left with the
    projected array at what the pipeline leaves. Its arrays are split out of the unscoped buffers and put back at the
    exit contents; the generator register goes into the invariant and comes out; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from the buffers as the first region left them, left with the
    result array at what the pipeline leaves. The projected array's ownership is halved between the query window and
    the key window on entry, and the halves are joined on exit (both windows only read it). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    rw [← Pipeline.unscopedBufs_held (Ix := Unit) (Name := ℕ) (U := UR sig nD τ) (Lvl := ℕ) c (W1 m ρ c), unscopedBufs_list,
      show (pdats m ρ 1 c) = dat1 (V1 m ρ) c from rfl, arrays1_list, unscopedRest1_eq]
    iintro ⟨⟨⟨Ha0, Ha1, Ha2, Hv0, Hv1⟩, Hp, HO⟩, -, -⟩
    ihave Hs := (pointsTo_share (PosShare.mem_left_op_right fullShare)).1 $$ Hv0
    icases Hs with ⟨Hl, Hr⟩
    imodintro
    isplitl [Hl Hr Ha0 Hv1]
    · isplitl [Hl]; · iexact Hl
      isplitl [Hr]; · iexact Hr
      isplitl [Ha0]; · iexact Ha0
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha1]; · iexact Ha1
    iexact Ha2
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have e0 : ∀ n, (dat1 (V1 m ρ) c).arrAt 0 n = V1 m ρ c main_v0 := fun n => ((dat1 (V1 m ρ) c).arrAt_in 0 rfl n).trans (A_eq1 (V1 m ρ) c 0)
    have e1 : ∀ n, (dat1 (V1 m ρ) c).arrAt 1 n = V1 m ρ c main_v0 := fun n => ((dat1 (V1 m ρ) c).arrAt_in 1 rfl n).trans (A_eq1 (V1 m ρ) c 1)
    have e2 : ∀ n, (dat1 (V1 m ρ) c).arrAt 2 n = V1 m ρ c main_arg0 := fun n => ((dat1 (V1 m ρ) c).arrAt_in 2 rfl n).trans (A_eq1 (V1 m ρ) c 2)
    unfold Tₙ
    rw [← Pipeline.unscopedBufs_held (Ix := Unit) (Name := ℕ) (U := UR sig nD τ) (Lvl := ℕ) c (W2 m ρ c), unscopedBufs_list,
      show (pdats m ρ 1 c) = dat1 (V1 m ρ) c from rfl, arrays1_list, unscopedRest1_eq]
    rw [show W2 m ρ c (Proc.devRef .tc main_arg0) = V1 m ρ c main_arg0 from V2_of_ne m ρ c main_arg0 (by decide),
      show W2 m ρ c (Proc.devRef .tc main_arg1) = V1 m ρ c main_arg1 from V2_of_ne m ρ c main_arg1 (by decide),
      show W2 m ρ c (Proc.devRef .tc main_arg2) = V1 m ρ c main_arg2 from V2_of_ne m ρ c main_arg2 (by decide),
      show W2 m ρ c (Proc.devRef .tc main_v0) = V1 m ρ c main_v0 from V2_of_ne m ρ c main_v0 (by decide),
      show W2 m ρ c (Proc.devRef .tc main_v1) = (dat1 (V1 m ρ) c).arrAt 3 cfg1.N from V2_result m ρ c]
    rw [e0, e1, e2]
    iintro ⟨⟨Hl, Hr, Ha0, Hv1⟩, HO, HY, Ha1, Ha2⟩
    ihave Hv0 := (pointsTo_share (PosShare.mem_left_op_right fullShare)).2 $$ [Hl Hr]
    · isplitl [Hl]; · iexact Hl
      iexact Hr
    imodintro
    isplitr [HO]
    · isplitr [HY]
      · isplitl [Ha0]; · iexact Ha0
        isplitl [Ha1]; · iexact Ha1
        isplitl [Ha2]; · iexact Ha2
        isplitl [Hv0]; · iexact Hv0
        iexact Hv1
      iexact HY
    unfold Pipeline.Dat.owesAt Pipeline.owesWithin
    icases HO with ⟨%W, -, HO⟩; iexists W; iexact HO

/-! ## The program as its two regions, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN, at any float instance: from any memory with zero counters every weakly fair execution terminates, nothing
    faulting, with every unscoped buffer at the last boundary's contents — so the result array holds what the second
    pipeline leaves and each argument array what it was launched with. -/
theorem run : θ_run defs (onTc (τ := τ) (main (F := F))) ⟨m, fun _ => 0, ρ⟩ (fun r => ∀ c : Dev nD,
      r.2.mem ((c.tc : Thread nD τ).loc main_v1) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (V2_result m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.Hand

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibDenseRows.lean ====
/-
  A dense layer whose weight is kept row-per-output and turned inside the product, read at an index, at the ideal
  values and for any extents.

  For an input block x of M rows and K columns, a weight w of N rows and K columns and a bias b of N entries, the
  block  x · wᵀ + b  — the weight transposed to K × N, the plain matrix product into the zero accumulator, the bias
  viewed as one row and repeated over the M rows — is at (p, q) the number  (∑ k, x (p, k) · w (q, k)) + b q
  (`denseT_apply`; its parts `matmulT_apply` and `biasRow_apply`). A column [a, 1] repeated along the second axis
  reads at (p, c) the column's entry p (`colBroadcast_apply`).
-/
import Idealize.ShloMosaic.PureOps.Ideal.Laws
import Idealize.ShloMosaic.Lib.ValueIdx
import Idealize.ShloMosaic.Lib.ValueLayout
import proofs.«161358_j34677565948786_2_alg».proof.Proof.LibPlainMatmul

noncomputable section

open scoped BigOperators

namespace Idealize.ShloMosaic.DenseRows

open Idealize.ShloMosaic Idealize.ShloMosaic.ValueIdx

/-- The product of x with the transpose of w, at (p, q): row p of x against row q of w. -/
theorem matmulT_apply {M K N : ℕ} {φ₁ φ₂ : FTy} (x : FVec Ideal ⟨2, ![M, K]⟩ φ₁) (w : FVec Ideal ⟨2, ![N, K]⟩ φ₂)
    (ht : (⟨2, ![N, K]⟩ : Shape).Transposes [1, 0] ⟨2, ![K, N]⟩) (p : Fin M) (q : Fin N) :
    matmul (DotDims.plain M K N) none x (transpose ⟨2, ![K, N]⟩ [1, 0] w ht)
        (constant ⟨2, ![M, N]⟩ .f32 0x00000000#32) (ix2 p q)
      = ∑ k : Fin K, x (ix2 p k) * w (ix2 q k) := by
  rw [PlainMatmul.plainMatmul_apply]
  refine Finset.sum_congr rfl fun k _ => ?_
  rw [transpose_ix2_apply]

/-- A bias of N entries viewed as one row and repeated over M rows reads, at (p, q), its entry q. -/
theorem biasRow_apply {M N : ℕ} {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  rw [broadcastTo_1b_ab_apply, shapeCast_a_1a_apply]

/-- The dense layer x · wᵀ + b at (p, q). -/
theorem denseT_apply {M K N : ℕ} {φ₁ φ₂ : FTy} (x : FVec Ideal ⟨2, ![M, K]⟩ φ₁) (w : FVec Ideal ⟨2, ![N, K]⟩ φ₂)
    (b : FVec Ideal ⟨1, ![N]⟩ .f32) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩)
    (p : Fin M) (q : Fin N) :
    addf (matmul (DotDims.plain M K N) none x (transpose ⟨2, ![K, N]⟩ [1, 0] w ht)
          (constant ⟨2, ![M, N]⟩ .f32 0x00000000#32))
        (broadcastTo ⟨2, ![M, N]⟩ (shapeCast ⟨2, ![1, N]⟩ b hc) hb) (ix2 p q)
      = (∑ k : Fin K, x (ix2 p k) * w (ix2 q k)) + b (ix1 q) := by
  rw [addf_apply, matmulT_apply, biasRow_apply]

/-- A column [a, 1] repeated along the second axis reads, at (p, c), the column's entry p. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.DenseRows

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.ProjTile.lean ====
/-
  One row block of the normalised projection, at the ideal values, read at an index.

  For an input block v0 of 2048 rows and 128 features, the weight matrix v2 (one row per output feature) and the bias
  v3, the block's linear image at (r, o) is the inner product of input row r with weight row o plus bias o
  (`lin`, `dense_apply`), and the stored block at (r, o) is that number divided by the larger of the Euclidean
  norm of row r of the linear image and the small floor (`proj_apply`).
-/
import proofs.«161358_j34677565948786_2_alg».proof.Proof.Gen.KernelIdeal.Skeleton
import proofs.«161358_j34677565948786_2_alg».proof.Proof.LibDenseRows
import proofs.«161358_j34677565948786_2_alg».proof.Proof.LibKeepdims
import Idealize.ShloMosaic.Lib.ValueLayout
import Idealize.ShloMosaic.Lib.ValueIdx
import Idealize.ShloMosaic.PureOps.Ideal.Laws

noncomputable section

open scoped BigOperators

namespace Cert.KernelIdeal.Value

open Cert.KernelIdeal Cert.KernelIdeal.Gen
open Idealize.ShloMosaic Idealize.ShloMosaic.ValueIdx

/-- The linear image of row r at output feature o: input row r against weight row o, plus the bias. -/
def lin (v0 : Vec Ideal S1x2048x128 .f32) (v2 : Vec Ideal S128x128 .f32) (v3 : Vec Ideal S128 .f32) (r : Fin 2048) (o : Fin 128) : EReal :=
  (∑ k : Fin 128, v0 (ix3 (0 : Fin 1) r k) * v2 (ix2 o k)) + v3 (ix1 o)

/-- The block's linear image as the kernel computes it: the product with the transposed weights into the zero
    accumulator plus the bias row repeated over the rows. -/
def denseBlk (v0 : Vec Ideal S1x2048x128 .f32) (v2 : Vec Ideal S128x128 .f32) (v3 : Vec Ideal S128 .f32) : FVec Ideal S2048x128 .f32 :=
  addf (matmul dot_S2048x128_S128x128_S2048x128_1_0_0_1_n_n none
      (truncf .bf16 (shapeCast S2048x128 v0 shapeCasts_S1x2048x128_S2048x128) bitsLt_bf16_f32)
      (transpose S128x128 [1, 0] (truncf .bf16 v2 bitsLt_bf16_f32) transposes_S128x128_p1_0_S128x128)
      (constant S2048x128 .f32 0x00000000#32))
    (broadcastTo S2048x128 (shapeCast S1x128 v3 shapeCasts_S128_S1x128) broadcasts_S1x128_S2048x128)

theorem dense_apply (v0 : Vec Ideal S1x2048x128 .f32) (v2 : Vec Ideal S128x128 .f32) (v3 : Vec Ideal S128 .f32) (r : Fin 2048) (o : Fin 128) :
    denseBlk v0 v2 v3 (ix2 r o) = lin v0 v2 v3 r o := by
  unfold denseBlk lin
  refine (DenseRows.denseT_apply (M := 2048) (K := 128) (N := 128) _ _ _ _ _ _ r o).trans ?_
  refine congrArg (fun s : EReal => s + v3 (ix1 o)) ?_
  exact Finset.sum_congr rfl fun k _ => by rw [truncf_apply, truncf_apply, shapeCast_1ab_ab_apply]

/-- The payload is the linear image normalised row by row. -/
theorem pay1_eq (v0 : Vec Ideal S1x2048x128 .f32) (v2 : Vec Ideal S128x128 .f32) (v3 : Vec Ideal S128 .f32) :
    k0_pay1 (F := Ideal) v0 v2 v3
      = shapeCast S1x2048x128 (truncf .bf16 (divf (denseBlk v0 v2 v3)
          (broadcastTo S2048x128 (maximumf (sqrt (shapeCast S2048x1
              (multiReduction .add [1] S2048 (mulf (denseBlk v0 v2 v3) (denseBlk v0 v2 v3)) 0x00000000#32 reduces_S2048x128_S2048 (.inl rfl) rfl)
              shapeCasts_S2048_S2048x1))
            (broadcast S2048x1 (Scalar.ofBits (F := Ideal) .f32 0x2B8CBCCC#32))) broadcasts_S2048x1_S2048x128)) bitsLt_bf16_f32)
          shapeCasts_S2048x128_S1x2048x128 := rfl

/-- The stored block at (r, o): the linear image over the larger of its row's Euclidean norm and the floor. -/
theorem proj_apply (v0 : Vec Ideal S1x2048x128 .f32) (v2 : Vec Ideal S128x128 .f32) (v3 : Vec Ideal S128 .f32)
    (u : Fin 1) (r : Fin 2048) (o : Fin 128) :
    k0_pay1 (F := Ideal) v0 v2 v3 (ix3 u r o)
      = Ideal.div (lin v0 v2 v3 r o)
          (max (Ideal.sqrt (∑ o' : Fin 128, lin v0 v2 v3 r o' * lin v0 v2 v3 r o')) (Ideal.ofBits .f32 0x2B8CBCCC#32)) := by
  rw [pay1_eq]
  refine (shapeCast_ab_1ab_apply _ _ u r o).trans ?_
  rw [truncf_apply, divf_apply, dense_apply]
  refine congrArg (fun s : EReal => Ideal.div (lin v0 v2 v3 r o) s) ?_
  refine (Keepdims.bcast_col_apply _ _ r o).trans ?_
  rw [maximumf_apply]
  refine congrArg (fun s : EReal => max (Ideal.sqrt s) (Ideal.ofBits .f32 0x2B8CBCCC#32)) ?_
  refine (Keepdims.cast_col_apply _ _ r (0 : Fin 1)).trans ?_
  refine (Keepdims.rowSum2_apply _ _ _ _ _ r).trans ?_
  exact Finset.sum_congr rfl fun o' _ => by rw [mulf_apply, dense_apply]

end Cert.KernelIdeal.Value

end
-- ==== Proof.AggTile.lean ====
/-
  One key tile of the aggregation, at the ideal values, read at an index.

  For a query block q (1024 rows of 128 features), a key tile t (1024 rows of 128 features) and a value tile u
  (1024 rows of 128 features):
    * the tile's indicator matrix at (r, j) is 1 when the inner product of query row r with key row j is above
      the threshold and 0 otherwise (`pay3_apply`, over `ind`);
    * the carried count of row r grows by the sum over j of the indicators (`pay4_apply`);
    * the carried weighted sum at (r, d) grows by the sum over j of indicator (r, j) times u (j, d) (`pay5_apply`);
    * after the trips the output at (r, d) is the weighted sum divided by the larger of the count and one
      (`pay6_apply`).
-/
import proofs.«161358_j34677565948786_2_alg».proof.Proof.Gen.KernelIdeal.Skeleton
import proofs.«161358_j34677565948786_2_alg».proof.Proof.LibDenseRows
import proofs.«161358_j34677565948786_2_alg».proof.Proof.LibKeepdims
import Idealize.ShloMosaic.Lib.ValueLayout
import Idealize.ShloMosaic.Lib.ValueIdx
import Idealize.ShloMosaic.PureOps.Ideal.Laws

noncomputable section

open scoped BigOperators

namespace Cert.KernelIdeal.Value

open Cert.KernelIdeal Cert.KernelIdeal.Gen
open Idealize.ShloMosaic Idealize.ShloMosaic.ValueIdx

/-- The 0/1 indicator, as an extended real, of "s is above the threshold" in the kernel's spelling: the comparison's
    bit widened to a 32-bit word and read as a signed integer. -/
def ind (s : EReal) : EReal :=
  FloatOps.sitofp (F := Ideal) .f32 ((FloatOps.cmpf (F := Ideal) .ogt s (Ideal.ofBits .f32 0x3F266666#32)).setWidth 32)

/-- The tile's indicator matrix at (r, j): query row r against key row j. -/
theorem pay3_apply (v0 v16 : Vec Ideal S1x1024x128 .bf16) (r j : Fin 1024) :
    k1_pay3 (F := Ideal) v0 v16 (ix2 r j) = ind (∑ d : Fin 128, v0 (ix3 (0 : Fin 1) r d) * v16 (ix3 (0 : Fin 1) j d)) := by
  unfold k1_pay3 ind
  dsimp only
  refine congrArg (fun s : EReal => FloatOps.sitofp (F := Ideal) .f32 ((FloatOps.cmpf (F := Ideal) .ogt s (Ideal.ofBits .f32 0x3F266666#32)).setWidth 32)) ?_
  refine (DenseRows.matmulT_apply (M := 1024) (K := 128) (N := 1024) _ _ _ r j).trans ?_
  exact Finset.sum_congr rfl fun d _ => by rw [shapeCast_1ab_ab_apply, shapeCast_1ab_ab_apply]

/-- The count of row r after a tile: the count before plus the tile's indicators of the row. -/
theorem pay4_apply (v0 v16 : Vec Ideal S1x1024x128 .bf16) (arg7 : FVec Ideal S1024x1 .f32) (r : Fin 1024) (z : Fin 1) :
    k1_pay4 (F := Ideal) v0 arg7 v16 (ix2 r z) = arg7 (ix2 r z) + ∑ j : Fin 1024, k1_pay3 (F := Ideal) v0 v16 (ix2 r j) := by
  unfold k1_pay4
  refine congrArg (fun s : EReal => arg7 (ix2 r z) + s) ?_
  refine (Keepdims.cast_col_apply _ _ r z).trans ?_
  exact Keepdims.rowSum2_apply _ _ _ _ _ r

/-- The weighted sum at (r, d) after a tile: the sum before plus the tile's indicators of row r times the tile's
    value rows at feature d. -/
theorem pay5_apply (v0 v16 : Vec Ideal S1x1024x128 .bf16) (arg8 : FVec Ideal S1024x128 .f32) (v19 : Vec Ideal S1x1024x128 .f32)
    (r : Fin 1024) (d : Fin 128) :
    k1_pay5 (F := Ideal) v0 arg8 v16 v19 (ix2 r d)
      = arg8 (ix2 r d) + ∑ j : Fin 1024, k1_pay3 (F := Ideal) v0 v16 (ix2 r j) * v19 (ix3 (0 : Fin 1) j d) := by
  unfold k1_pay5
  refine congrArg (fun s : EReal => arg8 (ix2 r d) + s) ?_
  refine (PlainMatmul.plainMatmul_apply (M := 1024) (K := 1024) (N := 128) none _ _ r d).trans ?_
  exact Finset.sum_congr rfl fun j _ => by rw [truncf_apply, truncf_apply, shapeCast_1ab_ab_apply]

/-- The output at (r, d): the weighted sum over the larger of the count and one. -/
theorem pay6_apply (a : FVec Ideal S1024x1 .f32) (b : FVec Ideal S1024x128 .f32) (u : Fin 1) (r : Fin 1024) (d : Fin 128) :
    k1_pay6 (F := Ideal) a b (ix3 u r d)
      = Ideal.div (b (ix2 r d)) (max (a (ix2 r (0 : Fin 1))) (Ideal.ofBits .f32 0x3F800000#32)) := by
  unfold k1_pay6
  refine (shapeCast_ab_1ab_apply _ _ u r d).trans ?_
  refine congrArg (fun s : EReal => Ideal.div (b (ix2 r d)) s) ?_
  exact Keepdims.bcast_col_apply _ _ r d

end Cert.KernelIdeal.Value

end
-- ==== Proof.LibSumSplit.lean ====
import Mathlib.Algebra.BigOperators.Fin
import Mathlib.Data.Fintype.BigOperators
import Mathlib.Logic.Equiv.Fin.Basic

/-!
# Sums over an index range cut into equal blocks

For any additive commutative monoid:

* `SumSplit.sum_blocks`: a sum over `Fin (n * b)` is the sum over the `n` blocks of the sums over the `b` positions
  inside a block, the position `s` of block `kk` being the index `b * kk + s`; `SumSplit.sum_4096` is the case
  `4096 = 8 * 512`.
* `SumSplit.nest8`: eight terms added one after the other onto zero are the sum over `Fin 8`.
* `SumSplit.accUpTo` adds the first `n` terms of a sequence one after the other onto zero, and
  `SumSplit.accUpTo_eq_sum` says that this is the sum over `Fin n`.
-/

open scoped BigOperators

namespace SumSplit

variable {M : Type*} [AddCommMonoid M]

/-- Position `s` of block `kk`, of `n` blocks of `b` positions each, lies below `n * b`. -/
theorem blk_lt {n b : ℕ} (kk : Fin n) (s : Fin b) : b * kk.val + s.val < n * b :=
  calc b * kk.val + s.val < b * kk.val + b := Nat.add_lt_add_left s.isLt _
    _ = b * (kk.val + 1) := (Nat.mul_succ b kk.val).symm
    _ ≤ b * n := Nat.mul_le_mul_left b kk.isLt
    _ = n * b := Nat.mul_comm b n

/-- A sum over `n * b` indices is the sum, over the `n` blocks, of the sums over the `b` positions of a block: the pair
    (block, position) runs over the indices once each, as `b * block + position`. -/
theorem sum_blocks (n b : ℕ) (g : Fin (n * b) → M) :
    ∑ s : Fin (n * b), g s = ∑ kk : Fin n, ∑ s : Fin b, g ⟨b * kk.val + s.val, blk_lt kk s⟩ := by
  rw [← Equiv.sum_comp finProdFinEquiv g, Fintype.sum_prod_type]
  refine Finset.sum_congr rfl fun kk _ => Finset.sum_congr rfl fun s _ => ?_
  refine congrArg g (Fin.ext ?_)
  show s.val + b * kk.val = b * kk.val + s.val
  exact Nat.add_comm _ _

/-- 4096 indices are 8 blocks of 512. -/
theorem sum_4096 (g : Fin 4096 → M) :
    ∑ s : Fin 4096, g s
      = ∑ kk : Fin 8, ∑ s : Fin 512, g ⟨512 * kk.val + s.val, by have := kk.isLt; have := s.isLt; omega⟩ :=
  sum_blocks 8 512 g

/-- Eight terms added one after the other onto zero are their sum. -/
theorem nest8 (c : Fin 8 → M) :
    ((((((((0 + c 0) + c 1) + c 2) + c 3) + c 4) + c 5) + c 6) + c 7) = ∑ kk : Fin 8, c kk := by
  rw [Fin.sum_univ_eight, zero_add]

/-- The first `n` terms of a sequence added one after the other onto zero. -/
def accUpTo (c : ℕ → M) : ℕ → M
  | 0 => 0
  | k + 1 => accUpTo c k + c k

/-- Adding the first `n` terms one after the other gives their sum. -/
theorem accUpTo_eq_sum (c : ℕ → M) (n : ℕ) : accUpTo c n = ∑ kk : Fin n, c kk.val := by
  induction n with
  | zero => rfl
  | succ k ih =>
    rw [Fin.sum_univ_castSucc]
    show accUpTo c k + c k = ∑ kk : Fin k, c kk.val + c k
    rw [ih]

end SumSplit
-- ==== Proof.AggFold.lean ====
/-
  The aggregation body's output block at an index, at the ideal values.

  The eight trips carry (count, weighted sum) for each of the block's 1024 query rows, starting from zero; trip k
  reads key rows and value rows [1024 k, 1024 k + 1024) of the batch and adds that tile's contribution. Adding the
  eight tiles one after the other is the sum over all 8192 rows of the batch: for query row r, with the indicator of
  "the inner product of query row r with key row m is above the threshold",
    count r          = the sum over m of the indicators,
    weighted (r, d)  = the sum over m of indicator m times value row m at feature d,
  and the stored block at (r, d) is weighted (r, d) over the larger of count r and one.
-/
import proofs.«161358_j34677565948786_2_alg».proof.Proof.KernelIdealFrame.Region1
import proofs.«161358_j34677565948786_2_alg».proof.Proof.AggTile
import proofs.«161358_j34677565948786_2_alg».proof.Proof.LibSumSplit
import Idealize.ShloMosaic.Lib.WholeRead

set_option maxRecDepth 16384

noncomputable section

open scoped BigOperators

namespace Cert.KernelIdeal.Value

open Cert.KernelIdeal Cert.KernelIdeal.Gen Cert.KernelIdeal.Hand
open Idealize.ShloMosaic Idealize.ShloMosaic.ValueIdx Idealize.SL.Sem

theorem trips_eq : k1_t1_loop.trips = 8 := by decide

/-- Row j of key tile kk, as a row of the batch. -/
def keyRow (kk : ℕ) (j : Fin 1024) : Fin 8192 := ⟨(1024 * kk + j.val) % 8192, Nat.mod_lt _ (by decide)⟩

/-- One trip yields the two payloads of the carried pair and the trip's two tile loads. -/
theorem tripR_eq {F : FTy → Type} [FloatOps F] (c : Dev nD) (i : grid1.Coords) (arg2 : Memref sig .tc .vmem S1x1024x128 .bf16) (harg2 : arg2.IsWhole) (arg3 : Memref sig .tc .vmem S1x8192x128 .bf16) (harg3 : arg3.IsWhole) (arg4 : Memref sig .tc .vmem S1x8192x128 .f32) (harg4 : arg4.IsWhole) (arg5 : Memref sig .tc .vmem S1x1024x128 .f32) (harg5 : arg5.IsWhole)
    (v0 : Vec F S1x1024x128 .bf16) (X3 : BufTy.Contents (Elt F) arg3.view.ty) (X4 : BufTy.Contents (Elt F) arg4.view.ty)
    (k : Fin k1_t1_loop.trips) (acc : FVec F S1024x1 .f32 × FVec F S1024x128 .f32) :
    tripR_k1_t1 (F := F) Variants.none c none i arg2 harg2 arg3 harg3 arg4 harg4 arg5 harg5 v0 X3 X4 k acc
      = (k1_pay4 v0 acc.1 (View.readAt (Elt F) arg3.view (Rect.unit (s := S1x8192x128) (k1_off1 k) S1x1024x128.size (k1_off1_inb k)).toLoadRect X3),
         k1_pay5 v0 acc.2 (View.readAt (Elt F) arg3.view (Rect.unit (s := S1x8192x128) (k1_off1 k) S1x1024x128.size (k1_off1_inb k)).toLoadRect X3)
           (View.readAt (Elt F) arg4.view (Rect.unit (s := S1x8192x128) (k1_off1 k) S1x1024x128.size (k1_off1_inb k)).toLoadRect X4)) := by
  unfold tripR_k1_t1 trip_k1_t1
  rfl

/-- A tile load of a whole staging buffer held at the block X reads, at (j, d), the block at row 1024 k + j. -/
theorem tile_apply {e : EltTy} (arg : Memref sig .tc .vmem S1x8192x128 e) (harg : arg.IsWhole) (X : Vec Ideal S1x8192x128 e)
    (k : Fin k1_t1_loop.trips) (u : Fin 1) (j : Fin 1024) (d : Fin 128) :
    View.readAt (Elt Ideal) arg.view (Rect.unit (s := S1x8192x128) (k1_off1 k) S1x1024x128.size (k1_off1_inb k)).toLoadRect (harg.unread X) (ix3 u j d)
      = X (ix3 (0 : Fin 1) (keyRow k.val j) d) := by
  refine (harg.readAt_unread X _ _).trans (congrArg X ?_)
  have hk : k.val < 8 := trips_eq ▸ k.isLt
  have hu : u.val = 0 := by omega
  have hj : j.val < 1024 := j.isLt
  funext a; apply Fin.ext
  match a with
  | ⟨0, _⟩ => show k1_off1 k 0 + 1 * u.val = 0; rw [k1_off1_eq k]; show 0 + 1 * u.val = 0; omega
  | ⟨1, _⟩ => show k1_off1 k 1 + 1 * j.val = (1024 * k.val + j.val) % 8192; rw [k1_off1_eq k]; show 1024 * k.val + 1 * j.val = _; omega
  | ⟨2, _⟩ => show k1_off1 k 2 + 1 * d.val = d.val; rw [k1_off1_eq k]; show 0 + 1 * d.val = d.val; omega

/-- The query load of a whole staging buffer held at the block X reads the block. -/
theorem query_apply (arg : Memref sig .tc .vmem S1x1024x128 .bf16) (harg : arg.IsWhole) (X : Vec Ideal S1x1024x128 .bf16)
    (u : Fin 1) (r : Fin 1024) (d : Fin 128) :
    View.readAt (Elt Ideal) arg.view rq1.toLoadRect (harg.unread X) (ix3 u r d) = X (ix3 (0 : Fin 1) r d) := by
  refine (harg.readAt_unread X _ _).trans (congrArg X ?_)
  have hu : u.val = 0 := by omega
  funext a; apply Fin.ext
  match a with
  | ⟨0, _⟩ => show 0 + 1 * u.val = 0; omega
  | ⟨1, _⟩ => show 0 + 1 * r.val = r.val; omega
  | ⟨2, _⟩ => show 0 + 1 * d.val = d.val; omega

section Fold

variable (c : Dev nD) (i : grid1.Coords) (arg2 : Memref sig .tc .vmem S1x1024x128 .bf16) (harg2 : arg2.IsWhole) (arg3 : Memref sig .tc .vmem S1x8192x128 .bf16) (harg3 : arg3.IsWhole) (arg4 : Memref sig .tc .vmem S1x8192x128 .f32) (harg4 : arg4.IsWhole) (arg5 : Memref sig .tc .vmem S1x1024x128 .f32) (harg5 : arg5.IsWhole)
  (x0 : Vec Ideal S1x1024x128 .bf16) (x1 : Vec Ideal S1x8192x128 .bf16) (x2 : Vec Ideal S1x8192x128 .f32)

/-- The inner product of query row r of the block with key row m of the batch. -/
def simBlk (r : Fin 1024) (m : Fin 8192) : EReal := ∑ d : Fin 128, x0 (ix3 (0 : Fin 1) r d) * x1 (ix3 (0 : Fin 1) m d)

/-- Key tile kk's part of the count of query row r, and of its weighted sum at feature d. -/
def cntTile (r : Fin 1024) (kk : ℕ) : EReal := ∑ j : Fin 1024, ind (simBlk x0 x1 r (keyRow kk j))
def sumTile (r : Fin 1024) (d : Fin 128) (kk : ℕ) : EReal :=
  ∑ j : Fin 1024, ind (simBlk x0 x1 r (keyRow kk j)) * x2 (ix3 (0 : Fin 1) (keyRow kk j) d)

/-- The carried pair before trip k. -/
abbrev stA (k : ℕ) : FVec Ideal S1024x1 .f32 × FVec Ideal S1024x128 .f32 :=
  st_k1_t1 (F := Ideal) Variants.none c none i arg2 harg2 arg3 harg3 arg4 harg4 arg5 harg5
    (View.readAt (Elt Ideal) arg2.view rq1.toLoadRect (harg2.unread x0)) (harg3.unread x1) (harg4.unread x2)
    (k1_pay1, k1_pay2) k

/-- Before trip k the carried pair holds the first k tiles' contributions, added one after the other from zero. -/
theorem st_apply (k : ℕ) (hk : k ≤ 8) :
    (∀ (r : Fin 1024) (z : Fin 1), (stA c i arg2 harg2 arg3 harg3 arg4 harg4 arg5 harg5 x0 x1 x2 k).1 (ix2 r z) = SumSplit.accUpTo (cntTile x0 x1 r) k)
    ∧ (∀ (r : Fin 1024) (d : Fin 128), (stA c i arg2 harg2 arg3 harg3 arg4 harg4 arg5 harg5 x0 x1 x2 k).2 (ix2 r d) = SumSplit.accUpTo (sumTile x0 x1 x2 r d) k) := by
  induction k with
  | zero =>
    refine ⟨fun r z => ?_, fun r d => ?_⟩
    · show Ideal.ofBits .f32 0x00000000#32 = 0
      exact Ideal.ofBits_zero_f32
    · show Ideal.ofBits .f32 0x00000000#32 = 0
      exact Ideal.ofBits_zero_f32
  | succ k ih =>
    obtain ⟨ih1, ih2⟩ := ih (by omega)
    have hk' : k < k1_t1_loop.trips := by rw [trips_eq]; omega
    have e : stA c i arg2 harg2 arg3 harg3 arg4 harg4 arg5 harg5 x0 x1 x2 (k + 1)
        = tripR_k1_t1 (F := Ideal) Variants.none c none i arg2 harg2 arg3 harg3 arg4 harg4 arg5 harg5
            (View.readAt (Elt Ideal) arg2.view rq1.toLoadRect (harg2.unread x0)) (harg3.unread x1) (harg4.unread x2) ⟨k, hk'⟩
            (stA c i arg2 harg2 arg3 harg3 arg4 harg4 arg5 harg5 x0 x1 x2 k) :=
      st_k1_t1_succ (F := Ideal) Variants.none c none i arg2 harg2 arg3 harg3 arg4 harg4 arg5 harg5 _ _ _ _ ⟨k, hk'⟩
    have hsim : ∀ (r j : Fin 1024),
        (∑ d : Fin 128, View.readAt (Elt Ideal) arg2.view rq1.toLoadRect (harg2.unread x0) (ix3 (0 : Fin 1) r d)
          * View.readAt (Elt Ideal) arg3.view (Rect.unit (s := S1x8192x128) (k1_off1 ⟨k, hk'⟩) S1x1024x128.size (k1_off1_inb ⟨k, hk'⟩)).toLoadRect (harg3.unread x1) (ix3 (0 : Fin 1) j d))
        = simBlk x0 x1 r (keyRow k j) := fun r j =>
      Finset.sum_congr rfl fun d _ => by rw [query_apply, tile_apply]
    rw [e, tripR_eq]
    refine ⟨fun r z => ?_, fun r d => ?_⟩
    · show k1_pay4 _ _ _ (ix2 r z) = _
      rw [pay4_apply, ih1 r z]
      show _ = SumSplit.accUpTo (cntTile x0 x1 r) k + cntTile x0 x1 r k
      refine congrArg (fun s : EReal => SumSplit.accUpTo (cntTile x0 x1 r) k + s) ?_
      exact Finset.sum_congr rfl fun j _ => by rw [pay3_apply, hsim]
    · show k1_pay5 _ _ _ _ (ix2 r d) = _
      rw [pay5_apply, ih2 r d]
      show _ = SumSplit.accUpTo (sumTile x0 x1 x2 r d) k + sumTile x0 x1 x2 r d k
      refine congrArg (fun s : EReal => SumSplit.accUpTo (sumTile x0 x1 x2 r d) k + s) ?_
      exact Finset.sum_congr rfl fun j _ => by rw [pay3_apply, hsim, tile_apply]

/-- Eight tiles of 1024 rows, added one after the other, are the sum over the batch's 8192 rows. -/
theorem tiles_sum (g : Fin 8192 → EReal) : SumSplit.accUpTo (fun kk => ∑ j : Fin 1024, g (keyRow kk j)) 8 = ∑ m : Fin 8192, g m := by
  rw [SumSplit.accUpTo_eq_sum]
  refine (Eq.trans ?_ (SumSplit.sum_blocks 8 1024 g).symm)
  refine Finset.sum_congr rfl fun kk _ => Finset.sum_congr rfl fun j _ => congrArg g (Fin.ext ?_)
  have := kk.isLt; have := j.isLt
  show (1024 * kk.val + j.val) % 8192 = 1024 * kk.val + j.val
  omega

/-- THE OUTPUT BLOCK at (r, d): the indicator-weighted sum of the value rows over the larger of the count and one. -/
theorem out1_3_apply (u : Fin 1) (r : Fin 1024) (d : Fin 128) :
    out1_3 (F := Ideal) c i arg2 harg2 arg3 harg3 arg4 harg4 arg5 harg5 x0 x1 x2 (ix3 u r d)
      = Ideal.div (∑ m : Fin 8192, ind (simBlk x0 x1 r m) * x2 (ix3 (0 : Fin 1) m d))
          (max (∑ m : Fin 8192, ind (simBlk x0 x1 r m)) (Ideal.ofBits .f32 0x3F800000#32)) := by
  have hz : (![0, 0, 0] : Fin 3 → Nat) = fun _ => 0 := funext fun a => by fin_cases a <;> rfl
  unfold out1_3
  rw [View.canon_unit_zero hz, pay6_apply]
  obtain ⟨h1, h2⟩ := st_apply c i arg2 harg2 arg3 harg3 arg4 harg4 arg5 harg5 x0 x1 x2 8 (le_refl 8)
  have e1 : (carried1 (F := Ideal) c i arg2 harg2 arg3 harg3 arg4 harg4 arg5 harg5 x0 x1 x2).1 (ix2 r (0 : Fin 1))
      = ∑ m : Fin 8192, ind (simBlk x0 x1 r m) := (h1 r 0).trans (tiles_sum (fun m => ind (simBlk x0 x1 r m)))
  have e2 : (carried1 (F := Ideal) c i arg2 harg2 arg3 harg3 arg4 harg4 arg5 harg5 x0 x1 x2).2 (ix2 r d)
      = ∑ m : Fin 8192, ind (simBlk x0 x1 r m) * x2 (ix3 (0 : Fin 1) m d) :=
    (h2 r d).trans (tiles_sum (fun m => ind (simBlk x0 x1 r m) * x2 (ix3 (0 : Fin 1) m d)))
  rw [e1, e2]

end Fold

end Cert.KernelIdeal.Value

end
-- ==== Proof.KernelValue.lean ====
/-
  What the program leaves in its result array, at the ideal values, as one function of the argument arrays.

  `proj x w b` is the normalised projection: at (bi, n, o) the inner product of input row (bi, n) with weight row o
  plus bias o, divided by the larger of that row's Euclidean norm and the small floor. `agg p x` is the aggregation
  of an array p of unit rows against the input x: at (bi, n, d), over the rows m of batch bi whose inner product with
  row n (both taken in p) is above the threshold, the sum of x (bi, m, d), divided by the larger of the number of
  such rows and one.

  The first region's blocks are the 2048-row blocks of `proj x w b`, and its sixteen grid points cover the projected
  array; the second region's blocks are the 1024-row blocks of `agg p x` for the projected array p it finds, and its
  thirty-two grid points cover the result array. So the result array ends at `agg (proj x w b) x`.
-/
import proofs.«161358_j34677565948786_2_alg».proof.Proof.KernelIdealFrame.Run
import proofs.«161358_j34677565948786_2_alg».proof.Proof.ProjTile
import proofs.«161358_j34677565948786_2_alg».proof.Proof.AggFold
import Idealize.ShloMosaic.Lib.Pipeline.Value

set_option maxRecDepth 16384

noncomputable section

open scoped BigOperators

namespace Cert.KernelIdeal.Value

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The two whole-array functions -/

section Spec

variable (x : S4x8192x128.Idx → EReal) (w : S128x128.Idx → EReal) (b : S128.Idx → EReal)

/-- The linear image of input row (bi, n) at output feature o. -/
def linA (bi : Fin 4) (n : Fin 8192) (o : Fin 128) : EReal := (∑ k : Fin 128, x (ix3 bi n k) * w (ix2 o k)) + b (ix1 o)

/-- The normalised projection at (bi, n, o). -/
def unitA (bi : Fin 4) (n : Fin 8192) (o : Fin 128) : EReal :=
  Ideal.div (linA x w b bi n o)
    (max (Ideal.sqrt (∑ o' : Fin 128, linA x w b bi n o' * linA x w b bi n o')) (Ideal.ofBits .f32 0x2B8CBCCC#32))

def proj : S4x8192x128.Idx → EReal := fun i => unitA x w b (i 0) (i 1) (i 2)

theorem proj_ix3 (bi : Fin 4) (n : Fin 8192) (o : Fin 128) : proj x w b (ix3 bi n o) = unitA x w b bi n o := rfl

variable (p : S4x8192x128.Idx → EReal)

/-- Rows n and m of batch bi of p against each other. -/
def simA (bi : Fin 4) (n m : Fin 8192) : EReal := ∑ d : Fin 128, p (ix3 bi n d) * p (ix3 bi m d)

/-- The aggregation at (bi, n, d). -/
def aggA (bi : Fin 4) (n : Fin 8192) (d : Fin 128) : EReal :=
  Ideal.div (∑ m : Fin 8192, ind (simA p bi n m) * x (ix3 bi m d))
    (max (∑ m : Fin 8192, ind (simA p bi n m)) (Ideal.ofBits .f32 0x3F800000#32))

def agg : S4x8192x128.Idx → EReal := fun i => aggA x p (i 0) (i 1) (i 2)

theorem agg_ix3 (bi : Fin 4) (n : Fin 8192) (d : Fin 128) : agg x p (ix3 bi n d) = aggA x p bi n d := rfl

end Spec

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

-- the core's buffer contents when a region is entered
variable (V : (c : Dev nD) → (b : Ref sig .tc) → Buf (Elt Ideal) ((c : Thread nD τ).loc b))

/-! ## The first region: the blocks of the projection -/

/-- The index maps over the sixteen points: the input rows' block moves with the output's, the weights' and the bias'
    blocks stay, and the output's block indices are (batch, row block, 0) with both below four. -/
theorem idx_facts0 : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0 ∧ win0_2.index t (0 : Fin 1) = 0
    ∧ win0_3.index t (0 : Fin 3) ≤ 3 ∧ win0_3.index t (1 : Fin 3) ≤ 3 :=
  (by decide +kernel : ∀ t : Fin grid0.N, _)

/-- Every (batch, row block) is some point's. -/
theorem idx_onto0 : ∀ (q0 : Fin 4) (q1 : Fin 4), ∃ t : Fin cfg0.N, win0_3.index t = ![q0.val, q1.val, 0] :=
  (by decide +kernel : ∀ (q0 : Fin 4) (q1 : Fin 4), ∃ t : Fin grid0.N, win0_3.index t = ![q0.val, q1.val, 0])

/-- Point t's batch, and the array row of its block's row r. -/
def pb (t : Fin cfg0.N) : Fin 4 := ⟨win0_3.index t (0 : Fin 3), by have := (idx_facts0 t).2.2.2.2.2.2.2.1; omega⟩
def pn (t : Fin cfg0.N) (r : Fin 2048) : Fin 8192 :=
  ⟨win0_3.index t (1 : Fin 3) * 2048 + r.val, by have := (idx_facts0 t).2.2.2.2.2.2.2.2; have := r.isLt; omega⟩

theorem emb0_3 (t : Fin cfg0.N) (u : Fin 1) (r : Fin 2048) (o : Fin 128) :
    ((cfg0.win 3).blk t).view.emb (ix3 u r o) = ix3 (pb t) (pn t r) o := by
  obtain ⟨e00, e01, e02, e32, e10, e11, e20, b0, b1⟩ := idx_facts0 t
  have hu : u.val = 0 := by omega
  funext a; apply Fin.ext
  match a with
  | ⟨0, _⟩ => show win0_3.index t (0 : Fin 3) * 1 + 1 * u.val = win0_3.index t (0 : Fin 3); omega
  | ⟨1, _⟩ => show win0_3.index t (1 : Fin 3) * 2048 + 1 * r.val = win0_3.index t (1 : Fin 3) * 2048 + r.val; omega
  | ⟨2, _⟩ => show win0_3.index t (2 : Fin 3) * 128 + 1 * o.val = o.val; omega

theorem emb0_0 (t : Fin cfg0.N) (u : Fin 1) (r : Fin 2048) (k : Fin 128) :
    ((cfg0.win 0).blk t).view.emb (ix3 u r k) = ix3 (pb t) (pn t r) k := by
  obtain ⟨e00, e01, e02, e32, e10, e11, e20, b0, b1⟩ := idx_facts0 t
  have hu : u.val = 0 := by omega
  funext a; apply Fin.ext
  match a with
  | ⟨0, _⟩ => show win0_0.index t (0 : Fin 3) * 1 + 1 * u.val = win0_3.index t (0 : Fin 3); omega
  | ⟨1, _⟩ => show win0_0.index t (1 : Fin 3) * 2048 + 1 * r.val = win0_3.index t (1 : Fin 3) * 2048 + r.val; omega
  | ⟨2, _⟩ => show win0_0.index t (2 : Fin 3) * 128 + 1 * k.val = k.val; omega

theorem emb0_1 (t : Fin cfg0.N) (o k : Fin 128) : ((cfg0.win 1).blk t).view.emb (ix2 o k) = ix2 o k := by
  obtain ⟨e00, e01, e02, e32, e10, e11, e20, b0, b1⟩ := idx_facts0 t
  funext a; apply Fin.ext
  match a with
  | ⟨0, _⟩ => show win0_1.index t (0 : Fin 2) * 128 + 1 * o.val = o.val; omega
  | ⟨1, _⟩ => show win0_1.index t (1 : Fin 2) * 128 + 1 * k.val = k.val; omega

theorem emb0_2 (t : Fin cfg0.N) (o : Fin 128) : ((cfg0.win 2).blk t).view.emb (ix1 o) = ix1 o := by
  obtain ⟨e00, e01, e02, e32, e10, e11, e20, b0, b1⟩ := idx_facts0 t
  funext a; apply Fin.ext
  match a with
  | ⟨0, _⟩ => show win0_2.index t (0 : Fin 1) * 128 + 1 * o.val = o.val; omega

/-- A block read is the array at the block's placement of the index. -/
theorem iblk0_0 (c : Dev nD) (t : Fin cfg0.N) (y : S1x2048x128.Idx) :
    iblk0 V c 0 t y = V c main_arg0 (((cfg0.win 0).blk t).view.emb y) := rfl
theorem iblk0_1 (c : Dev nD) (t : Fin cfg0.N) (y : S128x128.Idx) :
    iblk0 V c 1 t y = V c main_arg1 (((cfg0.win 1).blk t).view.emb y) := rfl
theorem iblk0_2 (c : Dev nD) (t : Fin cfg0.N) (y : S128.Idx) :
    iblk0 V c 2 t y = V c main_arg2 (((cfg0.win 2).blk t).view.emb y) := rfl

/-- The block's linear image is the array's, at the block's rows. -/
theorem lin_blk (c : Dev nD) (t : Fin cfg0.N) (r : Fin 2048) (o : Fin 128) :
    lin (iblk0 V c 0 t) (iblk0 V c 1 t) (iblk0 V c 2 t) r o
      = linA (V c main_arg0) (V c main_arg1) (V c main_arg2) (pb t) (pn t r) o := by
  unfold lin linA
  refine congrArg₂ (· + ·) (Finset.sum_congr rfl fun k _ => ?_) ?_
  · rw [iblk0_0, iblk0_1, emb0_0, emb0_1]
  · rw [iblk0_2, emb0_2]

/-- WHAT POINT t WRITES BACK is block t of the projection of the argument arrays as the region finds them. -/
theorem flushed0_eq (c : Dev nD) (t : Fin cfg0.N) :
    (dat0 V c).flushed 3 t = ((cfg0.win 3).blk t).view.read (Elt Ideal) (proj (V c main_arg0) (V c main_arg1) (V c main_arg2)) := by
  show (cfg0.win 3).cut (grid0.coords t) ((dat0 V c).after 3 t) = _
  rw [after0_3]
  unfold out0_3
  rw [View.canon_unit_zero hz3]
  simp only [View.ld_unit_zero (S := S1x2048x128) hz3, View.ld_unit_zero (S := S128x128) hz2, View.ld_unit_zero (S := S128) hz1]
  funext j
  obtain ⟨u, r, o, rfl⟩ : ∃ (u : Fin 1) (r : Fin 2048) (o : Fin 128), j = ix3 u r o := ⟨j 0, j 1, j 2, eq_ix3 j⟩
  show k0_pay1 (F := Ideal) (iblk0 V c 0 t) (iblk0 V c 1 t) (iblk0 V c 2 t) (ix3 u r o)
    = proj (V c main_arg0) (V c main_arg1) (V c main_arg2) (((cfg0.win 3).blk t).view.emb (ix3 u r o))
  rw [proj_apply, emb0_3, proj_ix3]
  unfold unitA
  simp only [lin_blk]

/-- An index of the array is in point t's block iff each coordinate is in the block's range on its axis. -/
theorem mem_blk0 (t : Fin cfg0.N) (i : S4x8192x128.Idx) :
    i ∈ ((cfg0.win 3).blk t).view.set ↔ ∀ a : Fin 3, win0_3.index t a * S1x2048x128.size a ≤ (i a).val ∧ (i a).val < win0_3.index t a * S1x2048x128.size a + S1x2048x128.size a := by
  show i ∈ ((View.whole main_v0).slice (win0_3.rect t)).set ↔ _
  rw [View.set_slice_whole, Rect.mem_set_unit]
  exact Iff.rfl

/-- The sixteen blocks cover the projected array. -/
theorem cover0 (i : S4x8192x128.Idx) : ∃ t : Fin cfg0.N, (cfg0.win 3).flush t = true ∧ i ∈ ((cfg0.win 3).blk t).view.set := by
  have hi0 : (i 0).val < 4 := (i 0).isLt
  have hi1 : (i 1).val < 8192 := (i 1).isLt
  have hi2 : (i 2).val < 128 := (i 2).isLt
  obtain ⟨t, ht⟩ := idx_onto0 ⟨(i 0).val, hi0⟩ ⟨(i 1).val / 2048, by omega⟩
  have q0 : win0_3.index t (0 : Fin 3) = (i 0).val := congrFun ht 0
  have q1 : win0_3.index t (1 : Fin 3) = (i 1).val / 2048 := congrFun ht 1
  have q2 : win0_3.index t (2 : Fin 3) = 0 := congrFun ht 2
  refine ⟨t, flush0_3 t, ?_⟩
  rw [mem_blk0]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 128 ≤ (i 2).val ∧ (i 2).val < win0_3.index t (2 : Fin 3) * 128 + 128; omega

/-- THE PROJECTED ARRAY after the first region. -/
theorem final0 (c : Dev nD) :
    (dat0 V c).arrAt 3 cfg0.N = proj (V c main_arg0) (V c main_arg1) (V c main_arg2) :=
  (dat0 V c).arrAt_eq_of_cover 3 _ (fun t _ => flushed0_eq V c t) cover0

/-! ## The second region: the blocks of the aggregation -/

theorem idx_facts1 : ∀ t : Fin cfg1.N,
    win1_0.index t (0 : Fin 3) = win1_3.index t (0 : Fin 3) ∧ win1_0.index t (1 : Fin 3) = win1_3.index t (1 : Fin 3)
    ∧ win1_0.index t (2 : Fin 3) = 0 ∧ win1_3.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 3 ∧ win1_3.index t (1 : Fin 3) ≤ 7 :=
  (by decide +kernel : ∀ t : Fin grid1.N, _)

theorem idx_onto1 : ∀ (q0 : Fin 4) (q1 : Fin 8), ∃ t : Fin cfg1.N, win1_3.index t = ![q0.val, q1.val, 0] :=
  (by decide +kernel : ∀ (q0 : Fin 4) (q1 : Fin 8), ∃ t : Fin grid1.N, win1_3.index t = ![q0.val, q1.val, 0])

/-- Point t's batch, and the array row of its query block's row r. -/
def qb (t : Fin cfg1.N) : Fin 4 := ⟨win1_3.index t (0 : Fin 3), by have := (idx_facts1 t).2.2.2.2.2.2.2.2.2.2.1; omega⟩
def qn (t : Fin cfg1.N) (r : Fin 1024) : Fin 8192 :=
  ⟨win1_3.index t (1 : Fin 3) * 1024 + r.val, by have := (idx_facts1 t).2.2.2.2.2.2.2.2.2.2.2; have := r.isLt; omega⟩

theorem emb1_3 (t : Fin cfg1.N) (u : Fin 1) (r : Fin 1024) (d : Fin 128) :
    ((cfg1.win 3).blk t).view.emb (ix3 u r d) = ix3 (qb t) (qn t r) d := by
  obtain ⟨e00, e01, e02, e32, e10, e11, e12, e20, e21, e22, b0, b1⟩ := idx_facts1 t
  have hu : u.val = 0 := by omega
  funext a; apply Fin.ext
  match a with
  | ⟨0, _⟩ => show win1_3.index t (0 : Fin 3) * 1 + 1 * u.val = win1_3.index t (0 : Fin 3); omega
  | ⟨1, _⟩ => show win1_3.index t (1 : Fin 3) * 1024 + 1 * r.val = win1_3.index t (1 : Fin 3) * 1024 + r.val; omega
  | ⟨2, _⟩ => show win1_3.index t (2 : Fin 3) * 128 + 1 * d.val = d.val; omega

theorem emb1_0 (t : Fin cfg1.N) (u : Fin 1) (r : Fin 1024) (d : Fin 128) :
    ((cfg1.win 0).blk t).view.emb (ix3 u r d) = ix3 (qb t) (qn t r) d := by
  obtain ⟨e00, e01, e02, e32, e10, e11, e12, e20, e21, e22, b0, b1⟩ := idx_facts1 t
  have hu : u.val = 0 := by omega
  funext a; apply Fin.ext
  match a with
  | ⟨0, _⟩ => show win1_0.index t (0 : Fin 3) * 1 + 1 * u.val = win1_3.index t (0 : Fin 3); omega
  | ⟨1, _⟩ => show win1_0.index t (1 : Fin 3) * 1024 + 1 * r.val = win1_3.index t (1 : Fin 3) * 1024 + r.val; omega
  | ⟨2, _⟩ => show win1_0.index t (2 : Fin 3) * 128 + 1 * d.val = d.val; omega

theorem emb1_1 (t : Fin cfg1.N) (u : Fin 1) (m : Fin 8192) (d : Fin 128) :
    ((cfg1.win 1).blk t).view.emb (ix3 u m d) = ix3 (qb t) m d := by
  obtain ⟨e00, e01, e02, e32, e10, e11, e12, e20, e21, e22, b0, b1⟩ := idx_facts1 t
  have hu : u.val = 0 := by omega
  funext a; apply Fin.ext
  match a with
  | ⟨0, _⟩ => show win1_1.index t (0 : Fin 3) * 1 + 1 * u.val = win1_3.index t (0 : Fin 3); omega
  | ⟨1, _⟩ => show win1_1.index t (1 : Fin 3) * 8192 + 1 * m.val = m.val; omega
  | ⟨2, _⟩ => show win1_1.index t (2 : Fin 3) * 128 + 1 * d.val = d.val; omega

theorem emb1_2 (t : Fin cfg1.N) (u : Fin 1) (m : Fin 8192) (d : Fin 128) :
    ((cfg1.win 2).blk t).view.emb (ix3 u m d) = ix3 (qb t) m d := by
  obtain ⟨e00, e01, e02, e32, e10, e11, e12, e20, e21, e22, b0, b1⟩ := idx_facts1 t
  have hu : u.val = 0 := by omega
  funext a; apply Fin.ext
  match a with
  | ⟨0, _⟩ => show win1_2.index t (0 : Fin 3) * 1 + 1 * u.val = win1_3.index t (0 : Fin 3); omega
  | ⟨1, _⟩ => show win1_2.index t (1 : Fin 3) * 8192 + 1 * m.val = m.val; omega
  | ⟨2, _⟩ => show win1_2.index t (2 : Fin 3) * 128 + 1 * d.val = d.val; omega

theorem iblk1_0 (c : Dev nD) (t : Fin cfg1.N) (y : S1x1024x128.Idx) :
    iblk1 V c 0 t y = V c main_v0 (((cfg1.win 0).blk t).view.emb y) := rfl
theorem iblk1_1 (c : Dev nD) (t : Fin cfg1.N) (y : S1x8192x128.Idx) :
    iblk1 V c 1 t y = V c main_v0 (((cfg1.win 1).blk t).view.emb y) := rfl
theorem iblk1_2 (c : Dev nD) (t : Fin cfg1.N) (y : S1x8192x128.Idx) :
    iblk1 V c 2 t y = V c main_arg0 (((cfg1.win 2).blk t).view.emb y) := rfl

/-- The block's inner products are the array's, at the block's rows. -/
theorem sim_blk (c : Dev nD) (t : Fin cfg1.N) (r : Fin 1024) (m : Fin 8192) :
    simBlk (iblk1 V c 0 t) (iblk1 V c 1 t) r m = simA (V c main_v0) (qb t) (qn t r) m := by
  unfold simBlk simA
  refine Finset.sum_congr rfl fun d _ => ?_
  rw [iblk1_0, iblk1_1, emb1_0, emb1_1]

theorem val_blk (c : Dev nD) (t : Fin cfg1.N) (m : Fin 8192) (d : Fin 128) :
    iblk1 V c 2 t (ix3 (0 : Fin 1) m d) = V c main_arg0 (ix3 (qb t) m d) := by
  rw [iblk1_2, emb1_2]

/-- The point's output block at (r, d) is the aggregation at the block's row. -/
theorem outAt1_apply (c : Dev nD) (t : Fin cfg1.N) (u : Fin 1) (r : Fin 1024) (d : Fin 128) :
    outAt1 V c t (ix3 u r d) = aggA (V c main_arg0) (V c main_v0) (qb t) (qn t r) d := by
  unfold outAt1
  rw [out1_3_apply]
  unfold aggA
  simp only [sim_blk, val_blk]

/-- Block t of any array G, read at (r, d), is G at the block's row. -/
theorem read_blk1 (t : Fin cfg1.N) (G : S4x8192x128.Idx → EReal) (u : Fin 1) (r : Fin 1024) (d : Fin 128) :
    ((cfg1.win 3).blk t).view.read (Elt Ideal) G (ix3 u r d) = G (ix3 (qb t) (qn t r) d) := by
  show G (((cfg1.win 3).blk t).view.emb (ix3 u r d)) = _
  rw [emb1_3]

/-- The result window is never cut: what a write-back moves is the whole block. -/
theorem cut1_3 (t : Fin cfg1.N) (X : S1x1024x128.Idx → EReal) : (cfg1.win 3).cut (grid1.coords t) X = X := rfl

/-- WHAT POINT t WRITES BACK is block t of the aggregation of the projected array and the input array as the region
    finds them. -/
theorem flushed1_eq (c : Dev nD) (t : Fin cfg1.N) :
    (dat1 V c).flushed 3 t = ((cfg1.win 3).blk t).view.read (Elt Ideal) (agg (V c main_arg0) (V c main_v0)) := by
  show (cfg1.win 3).cut (grid1.coords t) ((dat1 V c).after 3 t) = _
  rw [after1_3, cut1_3]
  funext j
  obtain ⟨u, r, d, rfl⟩ : ∃ (u : Fin 1) (r : Fin 1024) (d : Fin 128), j = ix3 u r d := ⟨j 0, j 1, j 2, eq_ix3 j⟩
  rw [read_blk1]
  exact (outAt1_apply V c t u r d).trans (agg_ix3 (V c main_arg0) (V c main_v0) (qb t) (qn t r) d).symm

theorem mem_blk1 (t : Fin cfg1.N) (i : S4x8192x128.Idx) :
    i ∈ ((cfg1.win 3).blk t).view.set ↔ ∀ a : Fin 3, win1_3.index t a * S1x1024x128.size a ≤ (i a).val ∧ (i a).val < win1_3.index t a * S1x1024x128.size a + S1x1024x128.size a := by
  show i ∈ ((View.whole main_v1).slice (win1_3.rect t)).set ↔ _
  rw [View.set_slice_whole, Rect.mem_set_unit]
  exact Iff.rfl

/-- The thirty-two blocks cover the result array. -/
theorem cover1 (i : S4x8192x128.Idx) : ∃ t : Fin cfg1.N, (cfg1.win 3).flush t = true ∧ i ∈ ((cfg1.win 3).blk t).view.set := by
  have hi0 : (i 0).val < 4 := (i 0).isLt
  have hi1 : (i 1).val < 8192 := (i 1).isLt
  have hi2 : (i 2).val < 128 := (i 2).isLt
  obtain ⟨t, ht⟩ := idx_onto1 ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 128 ≤ (i 2).val ∧ (i 2).val < win1_3.index t (2 : Fin 3) * 128 + 128; omega

/-- THE RESULT ARRAY after the second region. -/
theorem final1 (c : Dev nD) : (dat1 V c).arrAt 3 cfg1.N = agg (V c main_arg0) (V c main_v0) :=
  (dat1 V c).arrAt_eq_of_cover 3 _ (fun t _ => flushed1_eq V c t) cover1

/-! ## The whole run's result -/

variable (m : (ℓ : Loc nD τ sig) → Buf (Elt Ideal) ℓ) (ρ : Dev nD → PrngReg)

/-- The second region finds the projected array at the projection of the arguments, and the input array as launched. -/
theorem V1_v0 (c : Dev nD) : V1 m ρ c main_v0
    = proj (m ((c : Thread nD τ).loc main_arg0)) (m ((c : Thread nD τ).loc main_arg1)) (m ((c : Thread nD τ).loc main_arg2)) :=
  (W1_arr m ρ c 3).trans (final0 (V0 m ρ) c)
theorem V1_arg0 (c : Dev nD) : V1 m ρ c main_arg0 = m ((c : Thread nD τ).loc main_arg0) :=
  (W1_arr m ρ c 0).trans (((dat0 (V0 m ρ) c).arrAt_in 0 rfl _).trans (A_eq0 (V0 m ρ) c 0))

/-- THE RESULT of the run: the aggregation of the projection of the arguments against the input array. -/
theorem result_eq (c : Dev nD) : result m ρ c
    = agg (m ((c : Thread nD τ).loc main_arg0))
        (proj (m ((c : Thread nD τ).loc main_arg0)) (m ((c : Thread nD τ).loc main_arg1)) (m ((c : Thread nD τ).loc main_arg2))) := by
  unfold result
  rw [final1, V1_v0, V1_arg0]

end Cert.KernelIdeal.Value

end
-- ==== Proof.RefValue.lean ====
/-
  The reference's result, at the ideal values, index by index, in the same terms as the kernel's.

  The reference computes the normalised projection (its norm floor written `max floor norm`, its sums started from a
  zero word), the inner products of all pairs of rows of a batch, the 0/1 indicator of "above the threshold" (the
  comparison's bit read as an unsigned integer), the row counts clamped below by one, the indicators divided by the
  clamped counts, and the product of that matrix with the input array. So at (bi, n, d) it is the sum over rows m of
  (indicator (n, m) over clamped count n) times x (bi, m, d) (`refA`).
-/
import proofs.«161358_j34677565948786_2_alg».proof.Proof.KernelValue
import proofs.«161358_j34677565948786_2_alg».proof.Proof.Gen.ReferenceIdeal.Read

set_option maxRecDepth 16384

noncomputable section

open scoped BigOperators

namespace Cert.RefValue

open Cert.ReferenceIdeal Cert.ReferenceIdeal.Read Cert.KernelIdeal.Value
open Idealize.ShloMosaic Idealize.ShloMosaic.ValueIdx

/-- The comparison's bit read as an unsigned integer is the bit widened to 32 bits read as a signed one. -/
theorem uitofp_bit (bt : BitVec 1) :
    FloatOps.uitofp (F := Ideal) .f32 bt = FloatOps.sitofp (F := Ideal) .f32 (bt.setWidth 32) := by
  show ((bt.toNat : ℝ) : EReal) = (((bt.setWidth 32).toInt : ℝ) : EReal)
  rcases BitVec.eq_zero_or_eq_one bt with h | h <;> subst h
  · rw [show (0#1 : BitVec 1).toNat = 0 from by decide, show ((0#1 : BitVec 1).setWidth 32).toInt = 0 from by decide]; norm_num
  · rw [show (1#1 : BitVec 1).toNat = 1 from by decide, show ((1#1 : BitVec 1).setWidth 32).toInt = 1 from by decide]; norm_num

variable (x : Cert.KernelIdeal.S4x8192x128.Idx → EReal) (w : Cert.KernelIdeal.S128x128.Idx → EReal) (b : Cert.KernelIdeal.S128.Idx → EReal)

/-- The reference's final sum at (bi, n, d), over an array p of unit rows. -/
def refA (p : Cert.KernelIdeal.S4x8192x128.Idx → EReal) (bi : Fin 4) (n : Fin 8192) (d : Fin 128) : EReal :=
  ∑ m : Fin 8192, Ideal.div (ind (simA p bi n m)) (max (∑ m' : Fin 8192, ind (simA p bi n m')) (Ideal.ofBits .f32 0x3F800000#32))
    * x (ix3 bi m d)

theorem v3_ix (bi : Fin 4) (n : Fin 8192) (o : Fin 128) : val_main_v3 (F := Ideal) x w b (ix3 bi n o) = linA x w b bi n o := by
  have el : ∀ k : Fin 128, lidx_main_v0 (ix3 bi n o) k = ix3 bi n k := fun k =>
    funext fun a => Fin.ext (by match a with | ⟨0, _⟩ => rfl | ⟨1, _⟩ => rfl | ⟨2, _⟩ => rfl)
  have er : ∀ k : Fin 128, ridx_main_v0 (ix3 bi n o) k = ix2 o k := fun k =>
    funext fun a => Fin.ext (by match a with | ⟨0, _⟩ => rfl | ⟨1, _⟩ => rfl)
  have e1 : idx_main_v1 (idx_main_v2 (ix3 bi n o)) = ix1 o :=
    funext fun a => Fin.ext (by match a with | ⟨0, _⟩ => rfl)
  rw [val_main_v3_apply, val_main_v0_apply, val_main_v2_apply, val_main_v1_apply, e1]
  simp only [el, er]
  rfl

theorem v7_ix (bi : Fin 4) (n : Fin 8192) (o : Fin 128) : val_main_v7 (F := Ideal) x w b (ix3 bi n o) = unitA x w b bi n o := by
  have e6 : idx_main_call0_v2 (idx_main_v6 (ix3 bi n o)) = ix2 bi n :=
    funext fun a => Fin.ext (by match a with | ⟨0, _⟩ => rfl | ⟨1, _⟩ => rfl)
  have ek : ∀ k : Fin 128, idx_main_call0_v1 (ix2 bi n) k = ix3 bi n k := fun k =>
    funext fun a => Fin.ext (by match a with | ⟨0, _⟩ => rfl | ⟨1, _⟩ => rfl | ⟨2, _⟩ => rfl)
  rw [val_main_v7_apply, v3_ix, val_main_v6_apply, val_main_v5_apply, val_main_call1_v1_apply, val_main_call1_v0_apply,
    val_main_cst_apply, val_main_v4_apply, val_main_call0_v2_apply, e6, val_main_call0_v1_apply, val_main_call0_cst_apply]
  simp only [ek, val_main_call0_v0_apply, v3_ix]
  unfold unitA
  show Ideal.div _ (max (Ideal.ofBits .f32 0x2B8CBCCC#32) (Ideal.sqrt (Ideal.ofBits .f32 0x00000000#32 + _))) = _
  rw [Ideal.ofBits_zero_f32, zero_add, max_comm]
  rfl

theorem v11_ix (bi : Fin 4) (n m : Fin 8192) :
    val_main_v11 (F := Ideal) x w b (ix3 bi n m) = ind (simA (proj x w b) bi n m) := by
  have el : ∀ k : Fin 128, lidx_main_v8 (ix3 bi n m) k = ix3 bi n k := fun k =>
    funext fun a => Fin.ext (by match a with | ⟨0, _⟩ => rfl | ⟨1, _⟩ => rfl | ⟨2, _⟩ => rfl)
  have er : ∀ k : Fin 128, ridx_main_v8 (ix3 bi n m) k = ix3 bi m k := fun k =>
    funext fun a => Fin.ext (by match a with | ⟨0, _⟩ => rfl | ⟨1, _⟩ => rfl | ⟨2, _⟩ => rfl)
  rw [val_main_v11_apply, val_main_v10_apply, val_main_v8_apply, val_main_v9_apply, val_main_cst_0_apply, uitofp_bit]
  simp only [el, er, v7_ix]
  rfl

theorem v14_ix (bi : Fin 4) (n : Fin 8192) (z : Fin 1) :
    val_main_v14 (F := Ideal) x w b (ix3 bi n z)
      = max (∑ m : Fin 8192, ind (simA (proj x w b) bi n m)) (Ideal.ofBits .f32 0x3F800000#32) := by
  have e13 : idx_main_v13 (ix3 bi n z) = ix2 bi n :=
    funext fun a => Fin.ext (by match a with | ⟨0, _⟩ => rfl | ⟨1, _⟩ => rfl)
  have ek : ∀ k : Fin 8192, idx_main_v12 (ix2 bi n) k = ix3 bi n k := fun k =>
    funext fun a => Fin.ext (by match a with | ⟨0, _⟩ => rfl | ⟨1, _⟩ => rfl | ⟨2, _⟩ => rfl)
  rw [val_main_v14_apply, val_main_call2_v1_apply, val_main_call2_v0_apply, val_main_cst_2_apply, val_main_v13_apply, e13,
    val_main_v12_apply, val_main_cst_1_apply]
  simp only [ek, v11_ix]
  show max (Ideal.ofBits .f32 0x3F800000#32) (Ideal.ofBits .f32 0x00000000#32 + _) = _
  rw [Ideal.ofBits_zero_f32, zero_add, max_comm]

/-- THE REFERENCE'S RESULT at (bi, n, d). -/
theorem v17_ix (bi : Fin 4) (n : Fin 8192) (d : Fin 128) :
    val_main_v17 (F := Ideal) x w b (ix3 bi n d) = refA x (proj x w b) bi n d := by
  have el : ∀ k : Fin 8192, lidx_main_v17 (ix3 bi n d) k = ix3 bi n k := fun k =>
    funext fun a => Fin.ext (by match a with | ⟨0, _⟩ => rfl | ⟨1, _⟩ => rfl | ⟨2, _⟩ => rfl)
  have er : ∀ k : Fin 8192, ridx_main_v17 (ix3 bi n d) k = ix3 bi k d := fun k =>
    funext fun a => Fin.ext (by match a with | ⟨0, _⟩ => rfl | ⟨1, _⟩ => rfl | ⟨2, _⟩ => rfl)
  have e15 : ∀ k : Fin 8192, idx_main_v15 (ix3 bi n k) = ix3 bi n (0 : Fin 1) := fun k =>
    funext fun a => Fin.ext (by match a with | ⟨0, _⟩ => rfl | ⟨1, _⟩ => rfl | ⟨2, _⟩ => rfl)
  rw [val_main_v17_apply]
  unfold refA
  refine Finset.sum_congr rfl fun k _ => ?_
  rw [el, er, val_main_v16_apply, val_main_v15_apply, e15, v14_ix, v11_ix]
  rfl

end Cert.RefValue

end
-- ==== Proof.Bridge.lean ====
/-
  The law joining the two programs' last steps, on the extended reals.

  The kernel divides the indicator-weighted sum of rows by the clamped count; the reference divides each indicator by
  the clamped count first and then sums. For real indicators a m, real entries ξ m and a real divisor D that is not
  zero, (∑ m, a m · ξ m) / D = ∑ m, (a m / D) · ξ m : division by a nonzero real is multiplication by its reciprocal,
  and among reals a factor moves through a finite sum. (With an infinite entry the two sides can differ, which is why
  the entries' finiteness is used here and nowhere else.)
-/
import Idealize.ShloMosaic.PureOps.Ideal
import Idealize.ShloMosaic.PureOps.Ideal.Laws

noncomputable section

open scoped BigOperators

namespace Cert.Bridge

open Idealize.ShloMosaic

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern 0x3F800000 denotes one. -/
theorem one_f32 : Ideal.ofBits .f32 0x3F800000#32 = 1 := by simp [Ideal.ofBits, Ideal.ieee, -EReal.coe_mul]; norm_num

/-- Dividing a sum of products of reals by a nonzero real is summing the products with each first factor divided. -/
theorem div_sum {N : ℕ} (a ξ : Fin N → ℝ) (D : ℝ) (hD : D ≠ 0) :
    Ideal.div (∑ m : Fin N, (a m : EReal) * (ξ m : EReal)) (D : EReal)
      = ∑ m : Fin N, Ideal.div (a m : EReal) (D : EReal) * (ξ m : EReal) := by
  simp only [Ideal.div_coe hD, ← EReal.coe_mul, ← coe_sum]
  refine congrArg (fun r : ℝ => (r : EReal)) ?_
  rw [Finset.sum_mul]
  exact Finset.sum_congr rfl fun m _ => by ring

/-- The larger of a real sum and one, on the extended reals, is a real that is not zero. -/
theorem max_sum_one {N : ℕ} (a : Fin N → ℝ) :
    max (∑ m : Fin N, (a m : EReal)) (Ideal.ofBits .f32 0x3F800000#32) = ((max (∑ m : Fin N, a m) 1 : ℝ) : EReal) := by
  rw [one_f32, ← coe_sum, ← EReal.coe_one]
  exact (EReal.coe_strictMono.monotone.map_max).symm

theorem max_one_ne_zero (s : ℝ) : max s 1 ≠ 0 := ne_of_gt (lt_of_lt_of_le one_pos (le_max_right _ _))

end Cert.Bridge

end
-- ==== Proof.LibFiniteEntries.lean ====
/-
  Real entries from a finiteness test, at the ideal values.

  A precondition "every float input is finite" is printed, per argument, as: the absolute value of the array, compared
  entry by entry below the bit pattern of plus infinity broadcast from a scalar, the bits then reduced by conjunction
  to one bit. At the ideal values an entry is an extended real, its absolute value is max x (-x), and the pattern
  0x7F800000 denotes plus infinity; max x (-x) < plus infinity fails exactly at the two infinities. So where the
  reduced bit is one, every entry of the array is a real number, whatever the array's shape.
-/
import Idealize.ShloMosaic.PureOps.Ideal
import Idealize.ShloMosaic.Lib.ValueIdx
import Idealize.ShloMosaic.Lib.ReduceAll

noncomputable section

namespace Cert.LibFiniteEntries

open Idealize.ShloMosaic Idealize.ShloMosaic.ValueIdx

/-- The rank-0 shape has one index. -/
instance subsingleton_scalar_idx : Subsingleton (⟨0, ![]⟩ : Shape).Idx := ⟨fun a b => funext fun d => d.elim0⟩

/-- The f32 bit pattern 0x7F800000 denotes plus infinity. -/
theorem inf_pattern_f32 : Ideal.ofBits .f32 0x7F800000#32 = ⊤ := by simp [Ideal.ofBits, Ideal.ieee]

/-- An extended real whose absolute value max x (-x) compares below plus infinity is a real number. -/
theorem real_of_abs_lt_inf (x : EReal)
    (h : Ideal.cmp .olt (max x (-x)) (Ideal.ofBits .f32 0x7F800000#32) = 1#1) : ∃ v : ℝ, x = v := by
  rw [inf_pattern_f32] at h
  induction x using EReal.rec with
  | bot => simp [Ideal.cmp] at h
  | top => simp [Ideal.cmp] at h
  | coe r => exact ⟨r, rfl⟩

/-- The printed test of one argument: if the conjunction, over every entry of an f32 array of any shape, of
    "absolute value below the plus-infinity pattern" is one, every entry is a real number. -/
theorem real_entries_of_all_lt_inf {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32))) init h hu ix0 = 1#1)
    (i : s.Idx) : ∃ v : ℝ, a i = v :=
  real_of_abs_lt_inf (a i) (Host.reduce_andi_all _ _ _ _ ix0 e i)

end Cert.LibFiniteEntries

end
-- ==== Proof.Final.lean ====
/-
  At the ideal values the two programs end with equal results.

  The kernel's result array is `agg x (proj x w b)` (the aggregation of the normalised projection against the input
  array), the reference's is, index by index, the sum `refA x (proj x w b)`. The two differ only in where the
  division by the clamped count sits, and agree when the input array's entries are real numbers — which the
  precondition says of every float input.
-/
import proofs.«161358_j34677565948786_2_alg».proof.Proof.KernelValue
import proofs.«161358_j34677565948786_2_alg».proof.Proof.RefValue
import proofs.«161358_j34677565948786_2_alg».proof.Proof.Bridge
import proofs.«161358_j34677565948786_2_alg».proof.Proof.LibFiniteEntries
import proofs.«161358_j34677565948786_2_alg».proof.Defs
import proofs.«161358_j34677565948786_2_alg».proof.Proof.Gen.Pre_finite_inputs

set_option maxRecDepth 16384

noncomputable section

open scoped BigOperators

namespace Cert.Final

open Cert.KernelIdeal.Value Cert.RefValue
open Idealize.ShloMosaic Idealize.ShloMosaic.ValueIdx Idealize.SL.Sem

/-- With real entries in x, the aggregation is the reference's sum. -/
theorem agg_eq_ref (x p : Cert.KernelIdeal.S4x8192x128.Idx → EReal) (hx : ∀ i, ∃ v : ℝ, x i = v)
    (bi : Fin 4) (n : Fin 8192) (d : Fin 128) : aggA x p bi n d = refA x p bi n d := by
  choose ξ hξ using hx
  let a : Fin 8192 → ℝ := fun m =>
    ((((FloatOps.cmpf (F := Ideal) .ogt (simA p bi n m) (Ideal.ofBits .f32 0x3F266666#32)).setWidth 32).toInt : ℤ) : ℝ)
  have ha : ∀ m, ind (simA p bi n m) = (a m : EReal) := fun m => rfl
  have key := Bridge.div_sum a (fun m => ξ (ix3 bi m d)) (max (∑ m, a m) 1) (Bridge.max_one_ne_zero _)
  rw [← Bridge.max_sum_one a] at key
  unfold aggA refA
  simp only [ha, hξ]
  exact key

/-- Under the precondition every entry of the input array is a real number. -/
theorem x_real [Cert.Pre_finite_inputs.Facts] (x : FVec Ideal Cert.Pre_finite_inputs.S4x8192x128 .f32)
    (w : FVec Ideal Cert.Pre_finite_inputs.S128x128 .f32) (b : FVec Ideal Cert.Pre_finite_inputs.S128 .f32)
    (h : Cert.Pre_finite_inputs.fn (F := Ideal) x w b = fun _ => 1#1) (i : Cert.Pre_finite_inputs.S4x8192x128.Idx) : ∃ v : ℝ, x i = v := by
  have h0 := congrFun h ix0
  dsimp only [Cert.Pre_finite_inputs.fn] at h0
  obtain ⟨h1, -⟩ := IntOp.andi_eq_one.mp h0
  obtain ⟨h2, -⟩ := IntOp.andi_eq_one.mp h1
  exact Cert.LibFiniteEntries.real_entries_of_all_lt_inf x _ _ _ _ h2 i

/-- The reference's result is the kernel's, for an input array of real numbers. -/
theorem ref_eq_kernel (x : Cert.KernelIdeal.S4x8192x128.Idx → EReal) (w : Cert.KernelIdeal.S128x128.Idx → EReal)
    (b : Cert.KernelIdeal.S128.Idx → EReal) (hx : ∀ i, ∃ v : ℝ, x i = v) :
    Cert.ReferenceIdeal.Read.val_main_v17 (F := Ideal) x w b = agg x (proj x w b) := by
  funext i
  obtain ⟨bi, n, d, rfl⟩ : ∃ (bi : Fin 4) (n : Fin 8192) (d : Fin 128), i = ix3 bi n d := ⟨i 0, i 1, i 2, eq_ix3 i⟩
  rw [v17_ix, agg_ix3, agg_eq_ref x _ hx]

end Cert.Final

end
-- ==== Proof.lean ====
/-
  The certificate of the graph-aggregation kernel against its reference: the five claims.

  The program is two kernel regions. The first writes the normalised projection of the input rows (input times the
  transposed weights plus bias, each row divided by the larger of its Euclidean norm and a small floor). The second
  reads that array twice — as blocks of query rows and as whole batches of key rows — together with the input array as
  values: for each query row it counts the key rows of its batch whose inner product with it is above the threshold,
  sums the corresponding input rows, and divides the sum by the larger of the count and one.

  * The frames of the word-level program and of its reading at the ideal values: both regions run at every grid point (the second
    through its eight-trip loop by an invariant), nothing faults, and no region writes an argument array; the projected
    array's ownership is halved between the two windows that read it and joined again afterwards.
  * The reference's frame is its run with the result dropped.
  * Reading the kernel at the ideal values rewrote none of its operations, so there is nothing to preserve.
  * The values: the kernel's result array is one function of the arguments (the blocks of both regions are the blocks
    of whole-array functions, and the grid points cover the arrays); the reference's result, read one operation at a
    time, is the same function except that it divides each indicator by the clamped count before summing, where the
    kernel divides the sum. With the input's entries real numbers (the precondition) the two are equal.
-/
import proofs.«161358_j34677565948786_2_alg».proof.Defs
import proofs.«161358_j34677565948786_2_alg».proof.Proof.Gen.Kernel
import proofs.«161358_j34677565948786_2_alg».proof.Proof.Gen.KernelIdeal
import proofs.«161358_j34677565948786_2_alg».proof.Proof.Gen.ReferenceIdeal
import proofs.«161358_j34677565948786_2_alg».proof.Proof.Gen.ReferenceIdeal.Run
import proofs.«161358_j34677565948786_2_alg».proof.Proof.Gen.ReferenceIdeal.Read
import proofs.«161358_j34677565948786_2_alg».proof.Proof.Gen.Pre_finite_inputs
import proofs.«161358_j34677565948786_2_alg».proof.Proof.KernelFrame.Run
import proofs.«161358_j34677565948786_2_alg».proof.Proof.KernelIdealFrame.Run
import proofs.«161358_j34677565948786_2_alg».proof.Proof.KernelValue
import proofs.«161358_j34677565948786_2_alg».proof.Proof.Final
import Idealize.ShloMosaic.Adequacy
import Idealize.ShloMosaic.Init

noncomputable section

namespace Cert.Proof

open Idealize.ShloMosaic Idealize.SL.Sem

theorem frame_kernel : Cert.frame_Kernel := fun m ρ _ =>
  (θ_run Cert.Kernel.defs _ _).mono (fun _ h c => (h c).2) (Cert.Kernel.Hand.run (F := Bits) m ρ)

theorem frame_kernelIdeal : Cert.frame_KernelIdeal := fun m ρ _ =>
  (θ_run Cert.KernelIdeal.defs _ _).mono (fun _ h c => (h c).2) (Cert.KernelIdeal.Hand.run (F := Ideal) m ρ)

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values both programs run from memories agreeing on the arguments and end with the result array at the
    aggregation of the projection: the kernel by its regions' blocks, the reference by its operations read at an index
    and the law that moves the division through the sum (the input's entries are real numbers). -/
theorem algebraic : Cert.algebraic_KernelIdeal_ReferenceIdeal := by
  intro m ρ m' ρ' hpre hagree
  refine ⟨Cert.KernelIdeal.Hand.result m ρ, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2, Cert.KernelIdeal.Value.result_eq]
  exact Cert.Final.ref_eq_kernel _ _ _ (Cert.Final.x_real _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
